-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x500000 : Shape := ⟨2, ![2, 500000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S128x40 .f32) (main_arg9 : FVec F S40 .f32) (main_v33 : IVec S_ 1) : IVec S_ 1 :=
  let main_v34 : FVec F S128x40 .f32 := Host.absf main_arg8
  let main_cst_12 : FVec F S_ .f32 := constant S_ .f32 0x7F800000#32
  let main_v35 : FVec F S128x40 .f32 := broadcastInDim S128x40 ![] bcast_S_S128x40 main_cst_12
  let main_v36 : IVec S128x40 1 := cmpf .olt main_v34 main_v35
  let main_c_13 : IVec S_ 1 := constantI S_ 1 1#1
  let main_v37 : IVec S_ 1 := (fun x v => Host.reduce IntOp.andi x v reducesTo_S128x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x40 .f32) (main_arg9 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x500000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x40 .f32) (main_arg9 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x500000 : Shape := ⟨2, ![2, 500000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x500000 : Shape := ⟨2, ![1, 500000]⟩
abbrev S500000 : Shape := ⟨1, ![500000]⟩
abbrev S600000 : Shape := ⟨1, ![600000]⟩
abbrev S_ : Shape := ⟨0, ![]⟩
abbrev S600000x1 : Shape := ⟨2, ![600000, 1]⟩
abbrev S10000x128 : Shape := ⟨2, ![10000, 128]⟩
abbrev S600000x128 : Shape := ⟨2, ![600000, 128]⟩
abbrev S1x128 : Shape := ⟨2, ![1, 128]⟩
abbrev S100000x40 : Shape := ⟨2, ![100000, 40]⟩
abbrev S10000x40 : Shape := ⟨2, ![10000, 40]⟩
abbrev S600000x40 : Shape := ⟨2, ![600000, 40]⟩
abbrev S1x40 : Shape := ⟨2, ![1, 40]⟩

abbrev nBuf : Space → Nat
  | .hbm => 123
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x500000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x40, .f32⟩
  | .hbm, ⟨9, _⟩ => ⟨S40, .f32⟩
  | .hbm, ⟨10, _⟩ => ⟨S100000, .i32⟩
  | .hbm, ⟨11, _⟩ => ⟨S1x500000, .i32⟩
  | .hbm, ⟨12, _⟩ => ⟨S500000, .i32⟩
  | .hbm, ⟨13, _⟩ => ⟨S600000, .i32⟩
  | .hbm, ⟨14, _⟩ => ⟨S1x500000, .i32⟩
  | .hbm, ⟨15, _⟩ => ⟨S500000, .i32⟩
  | .hbm, ⟨16, _⟩ => ⟨S600000, .i32⟩
  | .hbm, ⟨17, _⟩ => ⟨S_, .f32⟩
  | .hbm, ⟨18, _⟩ => ⟨S600000, .f32⟩
  | .hbm, ⟨19, _⟩ => ⟨S_, .f32⟩
  | .hbm, ⟨20, _⟩ => ⟨S100000, .f32⟩
  | .hbm, ⟨21, _⟩ => ⟨S600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S600000, .i32⟩
  | .hbm, ⟨33, _⟩ => ⟨S600000, .i1⟩
  | .hbm, ⟨34, _⟩ => ⟨S_, .i32⟩
  | .hbm, ⟨35, _⟩ => ⟨S600000, .i32⟩
  | .hbm, ⟨36, _⟩ => ⟨S600000, .i32⟩
  | .hbm, ⟨37, _⟩ => ⟨S600000, .i32⟩
  | .hbm, ⟨38, _⟩ => ⟨S600000x1, .i32⟩
  | .hbm, ⟨39, _⟩ => ⟨S600000, .f32⟩
  | .hbm, ⟨40, _⟩ => ⟨S_, .i32⟩
  | .hbm, ⟨41, _⟩ => ⟨S600000, .i32⟩
  | .hbm, ⟨42, _⟩ => ⟨S600000, .i1⟩
  | .hbm, ⟨43, _⟩ => ⟨S_, .i32⟩
  | .hbm, ⟨44, _⟩ => ⟨S600000, .i32⟩
  | .hbm, ⟨45, _⟩ => ⟨S600000, .i32⟩
  | .hbm, ⟨46, _⟩ => ⟨S600000, .i32⟩
  | .hbm, ⟨47, _⟩ => ⟨S600000x1, .i32⟩
  | .hbm, ⟨48, _⟩ => ⟨S600000, .f32⟩
  | .hbm, ⟨49, _⟩ => ⟨S600000, .f32⟩
  | .hbm, ⟨50, _⟩ => ⟨S100000x128, .f32⟩
  | .hbm, ⟨51, _⟩ => ⟨S_, .i32⟩
  | .hbm, ⟨52, _⟩ => ⟨S600000, .i32⟩
  | .hbm, ⟨53, _⟩ => ⟨S600000, .i1⟩
  | .hbm, ⟨54, _⟩ => ⟨S_, .i32⟩
  | .hbm, ⟨55, _⟩ => ⟨S600000, .i32⟩
  | .hbm, ⟨56, _⟩ => ⟨S600000, .i32⟩
  | .hbm, ⟨57, _⟩ => ⟨S600000, .i32⟩
  | .hbm, ⟨58, _⟩ => ⟨S600000x1, .i32⟩
  | .hbm, ⟨59, _⟩ => ⟨S600000x128, .f32⟩
  | .hbm, ⟨60, _⟩ => ⟨S600000x1, .f32⟩
  | .hbm, ⟨61, _⟩ => ⟨S600000x128, .f32⟩
  | .hbm, ⟨62, _⟩ => ⟨S600000x128, .f32⟩
  | .hbm, ⟨63, _⟩ => ⟨S_, .f32⟩
  | .hbm, ⟨64, _⟩ => ⟨S100000x128, .f32⟩
  | .hbm, ⟨65, _⟩ => ⟨S600000x1, .i32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S_, .i32⟩
  | .hbm, ⟨70, _⟩ => ⟨S600000, .i32⟩
  | .hbm, ⟨71, _⟩ => ⟨S600000, .i1⟩
  | .hbm, ⟨72, _⟩ => ⟨S_, .i32⟩
  | .hbm, ⟨73, _⟩ => ⟨S600000, .i32⟩
  | .hbm, ⟨74, _⟩ => ⟨S600000, .i32⟩
  | .hbm, ⟨75, _⟩ => ⟨S600000, .i32⟩
  | .hbm, ⟨76, _⟩ => ⟨S600000x1, .i32⟩
  | .hbm, ⟨77, _⟩ => ⟨S600000x128, .f32⟩
  | .hbm, ⟨78, _⟩ => ⟨S600000x1, .f32⟩
  | .hbm, ⟨79, _⟩ => ⟨S600000x128, .f32⟩
  | .hbm, ⟨80, _⟩ => ⟨S600000x128, .f32⟩
  | .hbm, ⟨81, _⟩ => ⟨S_, .f32⟩
  | .hbm, ⟨82, _⟩ => ⟨S100000x128, .f32⟩
  | .hbm, ⟨83, _⟩ => ⟨S600000x1, .i32⟩
  | .hbm, ⟨84, _⟩ => ⟨S100000x128, .f32⟩
  | .hbm, ⟨85, _⟩ => ⟨S1x128, .f32⟩
  | .hbm, ⟨86, _⟩ => ⟨S100000x128, .f32⟩
  | .hbm, ⟨87, _⟩ => ⟨S_, .i32⟩
  | .hbm, ⟨88, _⟩ => ⟨S600000, .i32⟩
  | .hbm, ⟨89, _⟩ => ⟨S600000, .i1⟩
  | .hbm, ⟨90, _⟩ => ⟨S_, .i32⟩
  | .hbm, ⟨91, _⟩ => ⟨S600000, .i32⟩
  | .hbm, ⟨92, _⟩ => ⟨S600000, .i32⟩
  | .hbm, ⟨93, _⟩ => ⟨S600000, .i32⟩
  | .hbm, ⟨94, _⟩ => ⟨S600000x1, .i32⟩
  | .hbm, ⟨95, _⟩ => ⟨S600000x128, .f32⟩
  | .hbm, ⟨96, _⟩ => ⟨S600000x1, .f32⟩
  | .hbm, ⟨97, _⟩ => ⟨S600000x128, .f32⟩
  | .hbm, ⟨98, _⟩ => ⟨S600000x128, .f32⟩
  | .hbm, ⟨99, _⟩ => ⟨S_, .f32⟩
  | .hbm, ⟨100, _⟩ => ⟨S100000x128, .f32⟩
  | .hbm, ⟨101, _⟩ => ⟨S600000x1, .i32⟩
  | .hbm, ⟨102, _⟩ => ⟨S100000x128, .f32⟩
  | .hbm, ⟨103, _⟩ => ⟨S1x128, .f32⟩
  | .hbm, ⟨104, _⟩ => ⟨S100000x40, .f32⟩
  | .hbm, ⟨105, _⟩ => ⟨S_, .i32⟩
  | .hbm, ⟨106, _⟩ => ⟨S600000, .i32⟩
  | .hbm, ⟨107, _⟩ => ⟨S600000, .i1⟩
  | .hbm, ⟨108, _⟩ => ⟨S_, .i32⟩
  | .hbm, ⟨109, _⟩ => ⟨S600000, .i32⟩
  | .hbm, ⟨110, _⟩ => ⟨S600000, .i32⟩
  | .hbm, ⟨111, _⟩ => ⟨S600000, .i32⟩
  | .hbm, ⟨112, _⟩ => ⟨S600000x1, .i32⟩
  | .hbm, ⟨113, _⟩ => ⟨S600000x40, .f32⟩
  | .hbm, ⟨114, _⟩ => ⟨S600000x1, .f32⟩
  | .hbm, ⟨115, _⟩ => ⟨S600000x40, .f32⟩
  | .hbm, ⟨116, _⟩ => ⟨S600000x40, .f32⟩
  | .hbm, ⟨117, _⟩ => ⟨S_, .f32⟩
  | .hbm, ⟨118, _⟩ => ⟨S100000x40, .f32⟩
  | .hbm, ⟨119, _⟩ => ⟨S600000x1, .i32⟩
  | .hbm, ⟨120, _⟩ => ⟨S100000x40, .f32⟩
  | .hbm, ⟨121, _⟩ => ⟨S1x40, .f32⟩
  | .hbm, ⟨122, _⟩ => ⟨S100000x40, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S128x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S1x128, .f32⟩
  | .local _ .vmem, ⟨14, _⟩ => ⟨S128x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S1x128, .f32⟩
  | .local _ .vmem, ⟨20, _⟩ => ⟨S128x40, .f32⟩
  | .local _ .vmem, ⟨21, _⟩ => ⟨S10000x40, .f32⟩
  | .local _ .vmem, ⟨22, _⟩ => ⟨S10000x40, .f32⟩
  | .local _ .vmem, ⟨23, _⟩ => ⟨S10000x40, .f32⟩
  | .local _ .vmem, ⟨24, _⟩ => ⟨S10000x40, .f32⟩
  | .local _ .vmem, ⟨25, _⟩ => ⟨S1x40, .f32⟩
  | .local _ .vmem, ⟨26, _⟩ => ⟨S10000x40, .f32⟩
  | .local _ .vmem, ⟨27, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_9 : Ref sig .tc := ⟨.hbm, 69, rfl⟩
abbrev main_v46 : Ref sig .tc := ⟨.hbm, 70, rfl⟩
abbrev main_v47 : Ref sig .tc := ⟨.hbm, 71, rfl⟩
abbrev main_c_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_12 : Ref sig .tc := ⟨.hbm, 87, rfl⟩
abbrev main_v61 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_14 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_c_15 : Ref sig .tc := ⟨.hbm, 105, rfl⟩
abbrev main_v76 : Ref sig .tc := ⟨.hbm, 106, rfl⟩
abbrev main_v77 : Ref sig .tc := ⟨.hbm, 107, rfl⟩
abbrev main_c_16 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_17 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x40 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x40 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x500000_S1x500000_0_0 : S2x500000.Slices ![0, 0] S1x500000
  shapeCasts_S1x500000_S500000 : S1x500000.ShapeCasts S500000
  concatenates_S500000_S100000_S600000_d0 : Shape.Concatenates [S500000, S100000] S600000 0
  slices_S2x500000_S1x500000_1_0 : S2x500000.Slices ![1, 0] S1x500000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x40_S128x40_0_0 : ∀ a, (![0, 0] : Fin 2 → Nat) a + S128x40.size a ≤ S128x40.size a
  h_S128x40 : 0 < S128x40.numel
  inb_S10000x40_S10000x40_0_0 : ∀ a, (![0, 0] : Fin 2 → Nat) a + S10000x40.size a ≤ S10000x40.size a
  h_S10000x40 : 0 < S10000x40.numel
  bcast_S600000x1_S600000x40_0_1 : S600000x1.BroadcastsInDim S600000x40 (![0, 1] : Fin 2 → Fin S600000x40.rank)
  bcast_S_S100000x40 : S_.BroadcastsInDim S100000x40 (![] : Fin 0 → Fin S100000x40.rank)
  shapeCasts_S40_S1x40 : S40.ShapeCasts S1x40
  shapeCasts_S10000x40_S10000x40 : S10000x40.ShapeCasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  dot_S10000x128_S128x128_S10000x128_1_0_0_1_n_n_wf : DotDims.WF S10000x128 S128x128 S10000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S10000x128_S128x40_S10000x40_1_0_0_1_n_n_wf : DotDims.WF S10000x128 S128x40 S10000x40 [1] [0] [0] [1] [] []
  gather_S100000x40_S600000x1_S600000x40_1_0_n_n_0_1_140_wf : GatherDims.WF S100000x40 S600000x1 S600000x40 [1] [0] [] [0] [] 1 ![1, 40]
  scatter_S100000x40_S600000x1_S600000x40_1_0_0_1_wf : ScatterDims.WF S100000x40 S600000x1 S600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S100000x128.size a
  hwx2_3 : ∀ i : grid2.Coords, EltTy.bits .f32 = 32 ∨ (Rect.block (s := S100000x128) S10000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x40.size a ≤ S128x40.size a
  hwx3_2 : ∀ i : grid3.Coords, EltTy.bits .f32 = 32 ∨ (Rect.block (s := S128x40) S128x40.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x40.size a ≤ S100000x40.size a
  hwx3_3 : ∀ i : grid3.Coords, EltTy.bits .f32 = 32 ∨ (Rect.block (s := S100000x40) S10000x40.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x40.size a ≤ S100000x40.size a
  hwx4_0 : ∀ i : grid4.Coords, EltTy.bits .f32 = 32 ∨ (Rect.block (s := S100000x40) S10000x40.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x40.size a ≤ S1x40.size a
  hwx4_1 : ∀ i : grid4.Coords, EltTy.bits .f32 = 32 ∨ (Rect.block (s := S1x40) S1x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x40.size a ≤ S100000x40.size a
  hwx4_2 : ∀ i : grid4.Coords, EltTy.bits .f32 = 32 ∨ (Rect.block (s := S100000x40) S10000x40.size (cc4_transform_2 i) (hinb4_2 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf
def gather_S100000x40_S600000x1_S600000x40_1_0_n_n_0_1_140 : GatherDims S100000x40 S600000x1 S600000x40 where
  offsetDims := [1]
  collapsedSliceDims := [0]
  operandBatchingDims := []
  startIndicesBatchingDims := []
  startIndexMap := [0]
  indexVectorDim := 1
  sliceSizes := ![1, 40]
  wf := gather_S100000x40_S600000x1_S600000x40_1_0_n_n_0_1_140_wf
def scatter_S100000x40_S600000x1_S600000x40_1_0_0_1 : ScatterDims S100000x40 S600000x1 S600000x40 where
  updateWindowDims := [1]
  insertedWindowDims := [0]
  scatterDimsToOperandDims := [0]
  indexVectorDim := 1
  wf := scatter_S100000x40_S600000x1_S600000x40_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v73) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S128x40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v75) S10000x40.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v88) S10000x40.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v89) S1x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v90) S10000x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x500000 : Shape := ⟨2, ![2, 500000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x500000 : Shape := ⟨2, ![1, 500000]⟩
abbrev S500000 : Shape := ⟨1, ![500000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S100000x40 : Shape := ⟨2, ![100000, 40]⟩
abbrev S600000x40 : Shape := ⟨2, ![600000, 40]⟩
abbrev S1x40 : Shape := ⟨2, ![1, 40]⟩

abbrev nBuf : Space → Nat
  | .hbm => 139
  | .vmem => 0
  | .smem => 0
  | _ => 0

abbrev hbmTy0_0 (i : Nat) : BufTy := match i % 128 with
  | 0 => ⟨S100000x128, .f32⟩
  | 1 => ⟨S2x500000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x40, .f32⟩
  | 9 => ⟨S40, .f32⟩
  | 10 => ⟨S100000, .i32⟩
  | 11 => ⟨S1x500000, .i32⟩
  | 12 => ⟨S500000, .i32⟩
  | 13 => ⟨S600000, .i32⟩
  | 14 => ⟨S1x500000, .i32⟩
  | 15 => ⟨S500000, .i32⟩
  | 16 => ⟨S600000, .i32⟩
  | 17 => ⟨S_, .f32⟩
  | 18 => ⟨S600000, .f32⟩
  | 19 => ⟨S_, .f32⟩
  | 20 => ⟨S100000, .f32⟩
  | 21 => ⟨S600000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S600000, .i32⟩
  | 33 => ⟨S600000, .i1⟩
  | 34 => ⟨S_, .i32⟩
  | 35 => ⟨S600000, .i32⟩
  | 36 => ⟨S600000, .i32⟩
  | 37 => ⟨S600000, .i32⟩
  | 38 => ⟨S600000x1, .i32⟩
  | 39 => ⟨S600000, .f32⟩
  | 40 => ⟨S_, .i32⟩
  | 41 => ⟨S600000, .i32⟩
  | 42 => ⟨S600000, .i1⟩
  | 43 => ⟨S_, .i32⟩
  | 44 => ⟨S600000, .i32⟩
  | 45 => ⟨S600000, .i32⟩
  | 46 => ⟨S600000, .i32⟩
  | 47 => ⟨S600000x1, .i32⟩
  | 48 => ⟨S600000, .f32⟩
  | 49 => ⟨S600000, .f32⟩
  | 50 => ⟨S100000x128, .f32⟩
  | 51 => ⟨S_, .i32⟩
  | 52 => ⟨S600000, .i32⟩
  | 53 => ⟨S600000, .i1⟩
  | 54 => ⟨S_, .i32⟩
  | 55 => ⟨S600000, .i32⟩
  | 56 => ⟨S600000, .i32⟩
  | 57 => ⟨S600000, .i32⟩
  | 58 => ⟨S600000x1, .i32⟩
  | 59 => ⟨S600000x128, .f32⟩
  | 60 => ⟨S600000x1, .f32⟩
  | 61 => ⟨S600000x128, .f32⟩
  | 62 => ⟨S600000x128, .f32⟩
  | 63 => ⟨S_, .f32⟩
  | 64 => ⟨S100000x128, .f32⟩
  | 65 => ⟨S600000x1, .i32⟩
  | 66 => ⟨S100000x128, .f32⟩
  | 67 => ⟨S1x128, .f32⟩
  | 68 => ⟨S100000x128, .f32⟩
  | 69 => ⟨S100000x128, .f32⟩
  | 70 => ⟨S_, .f32⟩
  | 71 => ⟨S100000x128, .f32⟩
  | 72 => ⟨S100000x128, .f32⟩
  | 73 => ⟨S100000x128, .f32⟩
  | 74 => ⟨S_, .i32⟩
  | 75 => ⟨S600000, .i32⟩
  | 76 => ⟨S600000, .i1⟩
  | 77 => ⟨S_, .i32⟩
  | 78 => ⟨S600000, .i32⟩
  | 79 => ⟨S600000, .i32⟩
  | 80 => ⟨S600000, .i32⟩
  | 81 => ⟨S600000x1, .i32⟩
  | 82 => ⟨S600000x128, .f32⟩
  | 83 => ⟨S600000x1, .f32⟩
  | 84 => ⟨S600000x128, .f32⟩
  | 85 => ⟨S600000x128, .f32⟩
  | 86 => ⟨S_, .f32⟩
  | 87 => ⟨S100000x128, .f32⟩
  | 88 => ⟨S600000x1, .i32⟩
  | 89 => ⟨S100000x128, .f32⟩
  | 90 => ⟨S1x128, .f32⟩
  | 91 => ⟨S100000x128, .f32⟩
  | 92 => ⟨S100000x128, .f32⟩
  | 93 => ⟨S_, .f32⟩
  | 94 => ⟨S100000x128, .f32⟩
  | 95 => ⟨S100000x128, .f32⟩
  | 96 => ⟨S100000x128, .f32⟩
  | 97 => ⟨S_, .i32⟩
  | 98 => ⟨S600000, .i32⟩
  | 99 => ⟨S600000, .i1⟩
  | 100 => ⟨S_, .i32⟩
  | 101 => ⟨S600000, .i32⟩
  | 102 => ⟨S600000, .i32⟩
  | 103 => ⟨S600000, .i32⟩
  | 104 => ⟨S600000x1, .i32⟩
  | 105 => ⟨S600000x128, .f32⟩
  | 106 => ⟨S600000x1, .f32⟩
  | 107 => ⟨S600000x128, .f32⟩
  | 108 => ⟨S600000x128, .f32⟩
  | 109 => ⟨S_, .f32⟩
  | 110 => ⟨S100000x128, .f32⟩
  | 111 => ⟨S600000x1, .i32⟩
  | 112 => ⟨S100000x128, .f32⟩
  | 113 => ⟨S1x128, .f32⟩
  | 114 => ⟨S100000x128, .f32⟩
  | 115 => ⟨S100000x128, .f32⟩
  | 116 => ⟨S_, .f32⟩
  | 117 => ⟨S100000x128, .f32⟩
  | 118 => ⟨S100000x128, .f32⟩
  | 119 => ⟨S100000x40, .f32⟩
  | 120 => ⟨S_, .i32⟩
  | 121 => ⟨S600000, .i32⟩
  | 122 => ⟨S600000, .i1⟩
  | 123 => ⟨S_, .i32⟩
  | 124 => ⟨S600000, .i32⟩
  | 125 => ⟨S600000, .i32⟩
  | 126 => ⟨S600000, .i32⟩
  | 127 => ⟨S600000x1, .i32⟩
  | _ => ⟨S100000x128, .f32⟩

abbrev hbmTy0_1 (i : Nat) : BufTy := match i % 128 with
  | 0 => ⟨S600000x40, .f32⟩
  | 1 => ⟨S600000x1, .f32⟩
  | 2 => ⟨S600000x40, .f32⟩
  | 3 => ⟨S600000x40, .f32⟩
  | 4 => ⟨S_, .f32⟩
  | 5 => ⟨S100000x40, .f32⟩
  | 6 => ⟨S600000x1, .i32⟩
  | 7 => ⟨S100000x40, .f32⟩
  | 8 => ⟨S1x40, .f32⟩
  | 9 => ⟨S100000x40, .f32⟩
  | 10 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_v66 : Ref sig .tc := ⟨.hbm, 96, rfl⟩
abbrev main_c_12 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_14 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_call3_cst : Ref sig .tc := ⟨.hbm, 116, rfl⟩
abbrev main_call3_v0 : Ref sig .tc := ⟨.hbm, 117, rfl⟩
abbrev main_v83 : Ref sig .tc := ⟨.hbm, 118, rfl⟩
abbrev main_v84 : Ref sig .tc := ⟨.hbm, 119, rfl⟩
abbrev main_c_15 : Ref sig .tc := ⟨.hbm, 120, rfl⟩
abbrev main_v85 : Ref sig .tc := ⟨.hbm, 121, rfl⟩
abbrev main_v86 : Ref sig .tc := ⟨.hbm, 122, rfl⟩
abbrev main_c_16 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_17 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  concatenates_S500000_S100000_S600000_d0 : Shape.Concatenates [S500000, S100000] S600000 0
  slices_S2x500000_S1x500000_1_0 : S2x500000.Slices ![1, 0] S1x500000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S600000x1_S600000x40_0_1 : S600000x1.BroadcastsInDim S600000x40 (![0, 1] : Fin 2 → Fin S600000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  dot_S100000x128_S128x128_S100000x128_1_0_0_1_n_n_wf : DotDims.WF S100000x128 S128x128 S100000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x40_S100000x40_1_0_0_1_n_n_wf : DotDims.WF S100000x128 S128x40 S100000x40 [1] [0] [0] [1] [] []
  gather_S100000x40_S600000x1_S600000x40_1_0_n_n_0_1_140_wf : GatherDims.WF S100000x40 S600000x1 S600000x40 [1] [0] [] [0] [] 1 ![1, 40]
  scatter_S100000x40_S600000x1_S600000x40_1_0_0_1_wf : ScatterDims.WF S100000x40 S600000x1 S600000x40 [1] [0] [0] 1

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S600000x1_S600000x40_1_0_n_n_0_1_140 : GatherDims S100000x40 S600000x1 S600000x40 where
  offsetDims := [1]
  collapsedSliceDims := [0]
  operandBatchingDims := []
  startIndicesBatchingDims := []
  startIndexMap := [0]
  indexVectorDim := 1
  sliceSizes := ![1, 40]
  wf := gather_S100000x40_S600000x1_S600000x40_1_0_n_n_0_1_140_wf
def scatter_S100000x40_S600000x1_S600000x40_1_0_0_1 : ScatterDims S100000x40 S600000x1 S600000x40 where
  updateWindowDims := [1]
  insertedWindowDims := [0]
  scatterDimsToOperandDims := [0]
  indexVectorDim := 1
  wf := scatter_S100000x40_S600000x1_S600000x40_1_0_0_1_wf

class Facts : Prop extends Facts₀ where

variable [Facts]
-- ==== Proof.KernelRun.lean ====
/-
  The kernel's whole run, with every buffer's final contents named.

  The program is five pipelined regions among seven stretches of host operations. Running it from a launch memory m,
  the contents of the TensorCore's buffers at each of the thirteen boundaries are a fold from m: a stretch of host
  operations replaces the buffers it writes by its operations' values, a region replaces its output array by what its
  write-backs leave and keeps every other buffer. The last of these folds is the contents after the fifth region.
  This module states that every weakly fair execution terminates, without a fault, in a memory whose every unscoped
  buffer holds exactly that last fold — from which the result array, which the fifth region writes, and the ten
  argument arrays, which nothing writes, are read off.
-/
import proofs.«123305_j73220602462459_1_alg».proof.Proof.Gen.KernelIdeal.Frame

noncomputable section

set_option maxRecDepth 16384

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with each unscoped buffer of each core at the contents after the fifth region. -/
theorem run_contents : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-- The result array and the arguments: the result is what the fifth region's write-backs leave of its output window
    (the third of its three windows), and no operation or region writes an argument. -/
theorem run_result : θ_run defs (onTc (τ := τ) (main (F := F))) ⟨m, fun _ => 0, ρ⟩ (fun r => ∀ c : Dev nD,
      r.2.mem ((c.tc : Thread nD τ).loc main_v90) = (dat4 (V11 m ρ) c).arrAt 2 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v90 (by decide))).trans (W12_arr m ρ c 2),
     (h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c),
     (h c _ (mem_uc main_arg7 (by decide))).trans (W12_main_arg7 m ρ c),
     (h c _ (mem_uc main_arg8 (by decide))).trans (W12_main_arg8 m ρ c),
     (h c _ (mem_uc main_arg9 (by decide))).trans (W12_main_arg9 m ρ c)⟩)
    (run_contents m ρ)

end Cert.KernelIdeal.Whole

end
-- ==== Proof.Spec.lean ====
/-
  The function both programs compute, as stages of whole arrays over the extended reals.

  A graph on 100000 nodes is given by 600000 arcs (the 500000 listed ones and one loop per node): an array of
  arc sources, an array of arc targets, and one weight per arc (the product of the two endpoints' inverse root
  degrees). One round of message passing takes a table h of node rows and returns, in row v, the sum over the arcs
  into v of weight · h(source). That aggregation is written here once, as the host operations both programs apply
  (wrap a negative source by the node count, gather the rows, scale each by its arc's weight, scatter-add into the
  targets' rows), and is never opened: the two programs apply it to equal tables.

  Between aggregations the network is dense: multiply the rows by a weight matrix; add a bias row, clamp at zero and
  multiply by the next weight matrix; finally add the last bias row. These stages are stated entry by entry, with
  the row and the column as literal-sized coordinates, so that a block of rows of the kernel and the whole product of
  the reference meet in the same sum over k.

      out = shift (spread' (classes (spread (hidden (spread (hidden (spread (product x W0)) b0 W1)) b1 W2)) b2 W3)) b3
-/
import proofs.«123305_j73220602462459_1_alg».proof.KernelIdeal
import proofs.«123305_j73220602462459_1_alg».proof.Proof.Gen.KernelIdeal
import Idealize.ShloMosaic.Lib.ValueIdx
import Idealize.ShloMosaic.PureOps.Ideal

noncomputable section

namespace Cert.Gcn

open Idealize.ShloMosaic Idealize.ShloMosaic.ValueIdx Cert.KernelIdeal Cert.KernelIdeal.Facts₀

/-- One 32-bit integer per arc. -/
abbrev Arcs := (⟨S600000, .i32⟩ : BufTy).Contents (Elt Ideal)
/-- One extended real per arc. -/
abbrev ArcWeights := (⟨S600000, .f32⟩ : BufTy).Contents (Elt Ideal)

/-- The zero the hidden stages clamp at: the word of +0.0, never evaluated. -/
abbrev zero : EReal := Ideal.ofBits .f32 0x00000000#32

/-- The arc sources as a column of row indices into a node table: a negative source is wrapped by the node count. -/
def sourceColumn (src : Arcs) : (⟨S600000x1, .i32⟩ : BufTy).Contents (Elt Ideal) :=
  broadcastInDim S600000x1 ![0] bcast_S600000_S600000x1_0
    (select (cmpi .slt src (broadcastInDim S600000 ![] bcast_S_S600000 (constantI S_ 32 0#32)))
      (addi src (broadcastInDim S600000 ![] bcast_S_S600000 (constantI S_ 32 100000#32))) src)

/-- One round of message passing on a table of 128-wide rows: row v of the result is the sum over the arcs into v of
    the arc's weight times the source's row. -/
def spread (src dst : Arcs) (nrm : ArcWeights) (h : (⟨S100000x128, .f32⟩ : BufTy).Contents (Elt Ideal)) :
    (⟨S100000x128, .f32⟩ : BufTy).Contents (Elt Ideal) :=
  Host.scatterAdd (F := Ideal) scatter_S100000x128_S600000x1_S600000x128_1_0_0_1
    (broadcastInDim S100000x128 ![] bcast_S_S100000x128 (constant (F := Ideal) S_ .f32 0x00000000#32))
    (broadcastInDim S600000x1 ![0] bcast_S600000_S600000x1_0 dst)
    (mulf (Host.gather gather_S100000x128_S600000x1_S600000x128_1_0_n_n_0_1_1128 h (sourceColumn src))
      (broadcastInDim S600000x128 ![0, 1] bcast_S600000x1_S600000x128_0_1
        (broadcastInDim S600000x1 ![0] bcast_S600000_S600000x1_0 nrm)))

/-- The same round on a table of 40-wide rows. -/
def spread' (src dst : Arcs) (nrm : ArcWeights) (h : (⟨S100000x40, .f32⟩ : BufTy).Contents (Elt Ideal)) :
    (⟨S100000x40, .f32⟩ : BufTy).Contents (Elt Ideal) :=
  Host.scatterAdd (F := Ideal) scatter_S100000x40_S600000x1_S600000x40_1_0_0_1
    (broadcastInDim S100000x40 ![] bcast_S_S100000x40 (constant (F := Ideal) S_ .f32 0x00000000#32))
    (broadcastInDim S600000x1 ![0] bcast_S600000_S600000x1_0 dst)
    (mulf (Host.gather gather_S100000x40_S600000x1_S600000x40_1_0_n_n_0_1_140 h (sourceColumn src))
      (broadcastInDim S600000x40 ![0, 1] bcast_S600000x1_S600000x40_0_1
        (broadcastInDim S600000x1 ![0] bcast_S600000_S600000x1_0 nrm)))

variable {n c : ℕ}

/-- Entry (p, q) of rows × weight. -/
def productAt (y : (⟨2, ![n, 128]⟩ : Shape).Idx → EReal) (w : (⟨2, ![128, c]⟩ : Shape).Idx → EReal) (p : Fin n) (q : Fin c) : EReal :=
  ∑ k : Fin 128, y (ix2 p k) * w (ix2 k q)

/-- Entry (p, q) of (rows + bias row, clamped at zero) × weight. -/
def hiddenAt (a : (⟨2, ![n, 128]⟩ : Shape).Idx → EReal) (b : (⟨1, ![128]⟩ : Shape).Idx → EReal) (w : (⟨2, ![128, c]⟩ : Shape).Idx → EReal)
    (p : Fin n) (q : Fin c) : EReal :=
  ∑ k : Fin 128, max (a (ix2 p k) + b (ix1 k)) zero * w (ix2 k q)

/-- The node features times the first weight. -/
def product (x : (⟨2, ![n, 128]⟩ : Shape).Idx → EReal) (w : (⟨2, ![128, c]⟩ : Shape).Idx → EReal) (i : (⟨2, ![n, c]⟩ : Shape).Idx) : EReal :=
  productAt x w (i 0) (i 1)

/-- An aggregated table, biased, clamped at zero, times the next weight. -/
def hidden (a : (⟨2, ![n, 128]⟩ : Shape).Idx → EReal) (b : (⟨1, ![128]⟩ : Shape).Idx → EReal) (w : (⟨2, ![128, c]⟩ : Shape).Idx → EReal)
    (i : (⟨2, ![n, c]⟩ : Shape).Idx) : EReal :=
  hiddenAt a b w (i 0) (i 1)

/-- The last aggregated table plus the last bias row. -/
def shift (a : (⟨2, ![n, c]⟩ : Shape).Idx → EReal) (b : (⟨1, ![c]⟩ : Shape).Idx → EReal) (i : (⟨2, ![n, c]⟩ : Shape).Idx) : EReal :=
  a i + b (ix1 (i 1))

theorem product_apply (x : (⟨2, ![n, 128]⟩ : Shape).Idx → EReal) (w : (⟨2, ![128, c]⟩ : Shape).Idx → EReal) (p : Fin n) (q : Fin c) :
    product x w (ix2 p q) = ∑ k : Fin 128, x (ix2 p k) * w (ix2 k q) := rfl
theorem hidden_apply (a : (⟨2, ![n, 128]⟩ : Shape).Idx → EReal) (b : (⟨1, ![128]⟩ : Shape).Idx → EReal) (w : (⟨2, ![128, c]⟩ : Shape).Idx → EReal)
    (p : Fin n) (q : Fin c) : hidden a b w (ix2 p q) = ∑ k : Fin 128, max (a (ix2 p k) + b (ix1 k)) zero * w (ix2 k q) := rfl
theorem shift_apply (a : (⟨2, ![n, c]⟩ : Shape).Idx → EReal) (b : (⟨1, ![c]⟩ : Shape).Idx → EReal) (p : Fin n) (q : Fin c) :
    shift a b (ix2 p q) = a (ix2 p q) + b (ix1 q) := rfl

/-- A bias vector laid out as a table of one row (the kernel hands its bodies the bias in this layout). -/
def asRow {k : ℕ} (b : (⟨1, ![k]⟩ : Shape).Idx → EReal) : (⟨2, ![1, k]⟩ : Shape).Idx → EReal := fun j => b (ix1 (j 1))

/-- `hidden` with the bias given as a one-row table. -/
def hiddenRow (a : (⟨2, ![n, 128]⟩ : Shape).Idx → EReal) (br : (⟨2, ![1, 128]⟩ : Shape).Idx → EReal) (w : (⟨2, ![128, c]⟩ : Shape).Idx → EReal)
    (i : (⟨2, ![n, c]⟩ : Shape).Idx) : EReal :=
  ∑ k : Fin 128, max (a (ix2 (i 0) k) + br (ix2 (0 : Fin 1) k)) zero * w (ix2 k (i 1))

/-- `shift` with the bias given as a one-row table. -/
def shiftRow (a : (⟨2, ![n, c]⟩ : Shape).Idx → EReal) (br : (⟨2, ![1, c]⟩ : Shape).Idx → EReal) (i : (⟨2, ![n, c]⟩ : Shape).Idx) : EReal :=
  a i + br (ix2 (0 : Fin 1) (i 1))

theorem hiddenRow_asRow (a : (⟨2, ![n, 128]⟩ : Shape).Idx → EReal) (b : (⟨1, ![128]⟩ : Shape).Idx → EReal) (w : (⟨2, ![128, c]⟩ : Shape).Idx → EReal) :
    hiddenRow a (asRow b) w = hidden a b w := rfl
theorem shiftRow_asRow (a : (⟨2, ![n, c]⟩ : Shape).Idx → EReal) (b : (⟨1, ![c]⟩ : Shape).Idx → EReal) :
    shiftRow a (asRow b) = shift a b := rfl

/-- The whole network on the node features x, the arcs and the four weight / bias pairs. -/
def net (src dst : Arcs) (nrm : ArcWeights)
    (x : (⟨S100000x128, .f32⟩ : BufTy).Contents (Elt Ideal))
    (w0 : (⟨S128x128, .f32⟩ : BufTy).Contents (Elt Ideal)) (b0 : (⟨S128, .f32⟩ : BufTy).Contents (Elt Ideal))
    (w1 : (⟨S128x128, .f32⟩ : BufTy).Contents (Elt Ideal)) (b1 : (⟨S128, .f32⟩ : BufTy).Contents (Elt Ideal))
    (w2 : (⟨S128x128, .f32⟩ : BufTy).Contents (Elt Ideal)) (b2 : (⟨S128, .f32⟩ : BufTy).Contents (Elt Ideal))
    (w3 : (⟨S128x40, .f32⟩ : BufTy).Contents (Elt Ideal)) (b3 : (⟨S40, .f32⟩ : BufTy).Contents (Elt Ideal)) :
    (⟨S100000x40, .f32⟩ : BufTy).Contents (Elt Ideal) :=
  shift (spread' src dst nrm
    (hidden (spread src dst nrm
      (hidden (spread src dst nrm
        (hidden (spread src dst nrm (product x w0)) b0 w1)) b1 w2)) b2 w3)) b3

end Cert.Gcn

end
-- ==== Proof.CarryArcs.lean ====
/-
  The arcs survive the whole run.

  The arc sources, the arc targets and the arc weights are computed by the host operations before the first region.
  Every later aggregation reads them again, four regions and three stretches of host operations later at the latest.
  No later operation writes any of the three, and no region has any of them among its windows, so at every later
  boundary each still holds what it held when the first region was entered.
-/
import proofs.«123305_j73220602462459_1_alg».proof.Proof.Gen.KernelIdeal.Frame

noncomputable section

set_option maxRecDepth 16384

namespace Cert.KernelIdeal.Carry

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- A stretch of host operations keeps a buffer none of its operations writes: each operation's written buffer is a
    different reference, decided one operation at a time. -/
macro "untouched_by " h:ident : tactic =>
  `(tactic| (refine StableHlo.after_of_forall_not_mem _ _ (List.forall_iff_forall_mem.mp ?_)
             simp only [$h:ident, List.flatten_cons, List.flatten_nil, List.append_nil, List.cons_append, List.nil_append, List.Forall,
               StableHlo.nullary_writes, StableHlo.unary_writes, StableHlo.binary_writes, StableHlo.ternary_writes,
               StableHlo.quaternary_writes, StableHlo.reshape_writes, StableHlo.binaryIndexed_writes, Finset.mem_singleton]
             repeat' apply And.intro
             all_goals exact StableHlo.devRef_ne_of_ne (by decide)))

theorem w4_main_v3 (c : Dev nD) : W4 m ρ c (Proc.devRef .tc main_v3) = W3 m ρ c (Proc.devRef .tc main_v3) :=
  (W4_of_ne m ρ c main_v3 (by decide))
theorem w5_main_v3 (c : Dev nD) : W5 m ρ c (Proc.devRef .tc main_v3) = W3 m ρ c (Proc.devRef .tc main_v3) :=
  (show W5 m ρ c (Proc.devRef .tc main_v3) = W4 m ρ c (Proc.devRef .tc main_v3) from by untouched_by hostOps1).trans (w4_main_v3 m ρ c)
theorem w6_main_v3 (c : Dev nD) : W6 m ρ c (Proc.devRef .tc main_v3) = W3 m ρ c (Proc.devRef .tc main_v3) :=
  (W6_of_ne m ρ c main_v3 (by decide)).trans (w5_main_v3 m ρ c)
theorem w7_main_v3 (c : Dev nD) : W7 m ρ c (Proc.devRef .tc main_v3) = W3 m ρ c (Proc.devRef .tc main_v3) :=
  (show W7 m ρ c (Proc.devRef .tc main_v3) = W6 m ρ c (Proc.devRef .tc main_v3) from by untouched_by hostOps2).trans (w6_main_v3 m ρ c)
theorem w8_main_v3 (c : Dev nD) : W8 m ρ c (Proc.devRef .tc main_v3) = W3 m ρ c (Proc.devRef .tc main_v3) :=
  (W8_of_ne m ρ c main_v3 (by decide)).trans (w7_main_v3 m ρ c)
theorem w9_main_v3 (c : Dev nD) : W9 m ρ c (Proc.devRef .tc main_v3) = W3 m ρ c (Proc.devRef .tc main_v3) :=
  (show W9 m ρ c (Proc.devRef .tc main_v3) = W8 m ρ c (Proc.devRef .tc main_v3) from by untouched_by hostOps3).trans (w8_main_v3 m ρ c)
theorem w10_main_v3 (c : Dev nD) : W10 m ρ c (Proc.devRef .tc main_v3) = W3 m ρ c (Proc.devRef .tc main_v3) :=
  (W10_of_ne m ρ c main_v3 (by decide)).trans (w9_main_v3 m ρ c)

theorem w4_main_v6 (c : Dev nD) : W4 m ρ c (Proc.devRef .tc main_v6) = W3 m ρ c (Proc.devRef .tc main_v6) :=
  (W4_of_ne m ρ c main_v6 (by decide))
theorem w5_main_v6 (c : Dev nD) : W5 m ρ c (Proc.devRef .tc main_v6) = W3 m ρ c (Proc.devRef .tc main_v6) :=
  (show W5 m ρ c (Proc.devRef .tc main_v6) = W4 m ρ c (Proc.devRef .tc main_v6) from by untouched_by hostOps1).trans (w4_main_v6 m ρ c)
theorem w6_main_v6 (c : Dev nD) : W6 m ρ c (Proc.devRef .tc main_v6) = W3 m ρ c (Proc.devRef .tc main_v6) :=
  (W6_of_ne m ρ c main_v6 (by decide)).trans (w5_main_v6 m ρ c)
theorem w7_main_v6 (c : Dev nD) : W7 m ρ c (Proc.devRef .tc main_v6) = W3 m ρ c (Proc.devRef .tc main_v6) :=
  (show W7 m ρ c (Proc.devRef .tc main_v6) = W6 m ρ c (Proc.devRef .tc main_v6) from by untouched_by hostOps2).trans (w6_main_v6 m ρ c)
theorem w8_main_v6 (c : Dev nD) : W8 m ρ c (Proc.devRef .tc main_v6) = W3 m ρ c (Proc.devRef .tc main_v6) :=
  (W8_of_ne m ρ c main_v6 (by decide)).trans (w7_main_v6 m ρ c)
theorem w9_main_v6 (c : Dev nD) : W9 m ρ c (Proc.devRef .tc main_v6) = W3 m ρ c (Proc.devRef .tc main_v6) :=
  (show W9 m ρ c (Proc.devRef .tc main_v6) = W8 m ρ c (Proc.devRef .tc main_v6) from by untouched_by hostOps3).trans (w8_main_v6 m ρ c)
theorem w10_main_v6 (c : Dev nD) : W10 m ρ c (Proc.devRef .tc main_v6) = W3 m ρ c (Proc.devRef .tc main_v6) :=
  (W10_of_ne m ρ c main_v6 (by decide)).trans (w9_main_v6 m ρ c)

theorem w4_main_v29 (c : Dev nD) : W4 m ρ c (Proc.devRef .tc main_v29) = W3 m ρ c (Proc.devRef .tc main_v29) :=
  (W4_of_ne m ρ c main_v29 (by decide))
theorem w5_main_v29 (c : Dev nD) : W5 m ρ c (Proc.devRef .tc main_v29) = W3 m ρ c (Proc.devRef .tc main_v29) :=
  (show W5 m ρ c (Proc.devRef .tc main_v29) = W4 m ρ c (Proc.devRef .tc main_v29) from by untouched_by hostOps1).trans (w4_main_v29 m ρ c)
theorem w6_main_v29 (c : Dev nD) : W6 m ρ c (Proc.devRef .tc main_v29) = W3 m ρ c (Proc.devRef .tc main_v29) :=
  (W6_of_ne m ρ c main_v29 (by decide)).trans (w5_main_v29 m ρ c)
theorem w7_main_v29 (c : Dev nD) : W7 m ρ c (Proc.devRef .tc main_v29) = W3 m ρ c (Proc.devRef .tc main_v29) :=
  (show W7 m ρ c (Proc.devRef .tc main_v29) = W6 m ρ c (Proc.devRef .tc main_v29) from by untouched_by hostOps2).trans (w6_main_v29 m ρ c)
theorem w8_main_v29 (c : Dev nD) : W8 m ρ c (Proc.devRef .tc main_v29) = W3 m ρ c (Proc.devRef .tc main_v29) :=
  (W8_of_ne m ρ c main_v29 (by decide)).trans (w7_main_v29 m ρ c)
theorem w9_main_v29 (c : Dev nD) : W9 m ρ c (Proc.devRef .tc main_v29) = W3 m ρ c (Proc.devRef .tc main_v29) :=
  (show W9 m ρ c (Proc.devRef .tc main_v29) = W8 m ρ c (Proc.devRef .tc main_v29) from by untouched_by hostOps3).trans (w8_main_v29 m ρ c)
theorem w10_main_v29 (c : Dev nD) : W10 m ρ c (Proc.devRef .tc main_v29) = W3 m ρ c (Proc.devRef .tc main_v29) :=
  (W10_of_ne m ρ c main_v29 (by decide)).trans (w9_main_v29 m ρ c)

end Cert.KernelIdeal.Carry

end
-- ==== Proof.CarryWeights.lean ====
/-
  The weights and biases reach their readers unchanged.

  Each weight matrix is read by one region and each bias vector by the host operation that lays it out as a one-row
  table just before that region — up to ten boundaries after the launch. Until then no host operation writes them and no
  earlier region has them among its windows, so each is read at exactly its launch contents.
-/
import proofs.«123305_j73220602462459_1_alg».proof.Proof.Gen.KernelIdeal.Frame
import proofs.«123305_j73220602462459_1_alg».proof.Proof.CarryArcs

noncomputable section

set_option maxRecDepth 16384

namespace Cert.KernelIdeal.Carry

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

theorem w1_main_arg0 (c : Dev nD) : W1 m ρ c (Proc.devRef .tc main_arg0) = W0 m ρ c (Proc.devRef .tc main_arg0) :=
  (show W1 m ρ c (Proc.devRef .tc main_arg0) = W0 m ρ c (Proc.devRef .tc main_arg0) from by untouched_by hostOps0)
theorem w2_main_arg0 (c : Dev nD) : W2 m ρ c (Proc.devRef .tc main_arg0) = W0 m ρ c (Proc.devRef .tc main_arg0) :=
  (show W2 m ρ c (Proc.devRef .tc main_arg0) = W1 m ρ c (Proc.devRef .tc main_arg0) from by untouched_by hostOps0_1).trans (w1_main_arg0 m ρ c)
theorem w3_main_arg0 (c : Dev nD) : W3 m ρ c (Proc.devRef .tc main_arg0) = W0 m ρ c (Proc.devRef .tc main_arg0) :=
  (show W3 m ρ c (Proc.devRef .tc main_arg0) = W2 m ρ c (Proc.devRef .tc main_arg0) from by untouched_by hostOps0_2).trans (w2_main_arg0 m ρ c)

theorem w1_main_arg2 (c : Dev nD) : W1 m ρ c (Proc.devRef .tc main_arg2) = W0 m ρ c (Proc.devRef .tc main_arg2) :=
  (show W1 m ρ c (Proc.devRef .tc main_arg2) = W0 m ρ c (Proc.devRef .tc main_arg2) from by untouched_by hostOps0)
theorem w2_main_arg2 (c : Dev nD) : W2 m ρ c (Proc.devRef .tc main_arg2) = W0 m ρ c (Proc.devRef .tc main_arg2) :=
  (show W2 m ρ c (Proc.devRef .tc main_arg2) = W1 m ρ c (Proc.devRef .tc main_arg2) from by untouched_by hostOps0_1).trans (w1_main_arg2 m ρ c)
theorem w3_main_arg2 (c : Dev nD) : W3 m ρ c (Proc.devRef .tc main_arg2) = W0 m ρ c (Proc.devRef .tc main_arg2) :=
  (show W3 m ρ c (Proc.devRef .tc main_arg2) = W2 m ρ c (Proc.devRef .tc main_arg2) from by untouched_by hostOps0_2).trans (w2_main_arg2 m ρ c)

theorem w1_main_arg3 (c : Dev nD) : W1 m ρ c (Proc.devRef .tc main_arg3) = W0 m ρ c (Proc.devRef .tc main_arg3) :=
  (show W1 m ρ c (Proc.devRef .tc main_arg3) = W0 m ρ c (Proc.devRef .tc main_arg3) from by untouched_by hostOps0)
theorem w2_main_arg3 (c : Dev nD) : W2 m ρ c (Proc.devRef .tc main_arg3) = W0 m ρ c (Proc.devRef .tc main_arg3) :=
  (show W2 m ρ c (Proc.devRef .tc main_arg3) = W1 m ρ c (Proc.devRef .tc main_arg3) from by untouched_by hostOps0_1).trans (w1_main_arg3 m ρ c)
theorem w3_main_arg3 (c : Dev nD) : W3 m ρ c (Proc.devRef .tc main_arg3) = W0 m ρ c (Proc.devRef .tc main_arg3) :=
  (show W3 m ρ c (Proc.devRef .tc main_arg3) = W2 m ρ c (Proc.devRef .tc main_arg3) from by untouched_by hostOps0_2).trans (w2_main_arg3 m ρ c)
theorem w4_main_arg3 (c : Dev nD) : W4 m ρ c (Proc.devRef .tc main_arg3) = W0 m ρ c (Proc.devRef .tc main_arg3) :=
  (W4_of_ne m ρ c main_arg3 (by decide)).trans (w3_main_arg3 m ρ c)

theorem w1_main_arg4 (c : Dev nD) : W1 m ρ c (Proc.devRef .tc main_arg4) = W0 m ρ c (Proc.devRef .tc main_arg4) :=
  (show W1 m ρ c (Proc.devRef .tc main_arg4) = W0 m ρ c (Proc.devRef .tc main_arg4) from by untouched_by hostOps0)
theorem w2_main_arg4 (c : Dev nD) : W2 m ρ c (Proc.devRef .tc main_arg4) = W0 m ρ c (Proc.devRef .tc main_arg4) :=
  (show W2 m ρ c (Proc.devRef .tc main_arg4) = W1 m ρ c (Proc.devRef .tc main_arg4) from by untouched_by hostOps0_1).trans (w1_main_arg4 m ρ c)
theorem w3_main_arg4 (c : Dev nD) : W3 m ρ c (Proc.devRef .tc main_arg4) = W0 m ρ c (Proc.devRef .tc main_arg4) :=
  (show W3 m ρ c (Proc.devRef .tc main_arg4) = W2 m ρ c (Proc.devRef .tc main_arg4) from by untouched_by hostOps0_2).trans (w2_main_arg4 m ρ c)
theorem w4_main_arg4 (c : Dev nD) : W4 m ρ c (Proc.devRef .tc main_arg4) = W0 m ρ c (Proc.devRef .tc main_arg4) :=
  (W4_of_ne m ρ c main_arg4 (by decide)).trans (w3_main_arg4 m ρ c)
theorem w5_main_arg4 (c : Dev nD) : W5 m ρ c (Proc.devRef .tc main_arg4) = W0 m ρ c (Proc.devRef .tc main_arg4) :=
  (show W5 m ρ c (Proc.devRef .tc main_arg4) = W4 m ρ c (Proc.devRef .tc main_arg4) from by untouched_by hostOps1).trans (w4_main_arg4 m ρ c)

theorem w1_main_arg5 (c : Dev nD) : W1 m ρ c (Proc.devRef .tc main_arg5) = W0 m ρ c (Proc.devRef .tc main_arg5) :=
  (show W1 m ρ c (Proc.devRef .tc main_arg5) = W0 m ρ c (Proc.devRef .tc main_arg5) from by untouched_by hostOps0)
theorem w2_main_arg5 (c : Dev nD) : W2 m ρ c (Proc.devRef .tc main_arg5) = W0 m ρ c (Proc.devRef .tc main_arg5) :=
  (show W2 m ρ c (Proc.devRef .tc main_arg5) = W1 m ρ c (Proc.devRef .tc main_arg5) from by untouched_by hostOps0_1).trans (w1_main_arg5 m ρ c)
theorem w3_main_arg5 (c : Dev nD) : W3 m ρ c (Proc.devRef .tc main_arg5) = W0 m ρ c (Proc.devRef .tc main_arg5) :=
  (show W3 m ρ c (Proc.devRef .tc main_arg5) = W2 m ρ c (Proc.devRef .tc main_arg5) from by untouched_by hostOps0_2).trans (w2_main_arg5 m ρ c)
theorem w4_main_arg5 (c : Dev nD) : W4 m ρ c (Proc.devRef .tc main_arg5) = W0 m ρ c (Proc.devRef .tc main_arg5) :=
  (W4_of_ne m ρ c main_arg5 (by decide)).trans (w3_main_arg5 m ρ c)
theorem w5_main_arg5 (c : Dev nD) : W5 m ρ c (Proc.devRef .tc main_arg5) = W0 m ρ c (Proc.devRef .tc main_arg5) :=
  (show W5 m ρ c (Proc.devRef .tc main_arg5) = W4 m ρ c (Proc.devRef .tc main_arg5) from by untouched_by hostOps1).trans (w4_main_arg5 m ρ c)
theorem w6_main_arg5 (c : Dev nD) : W6 m ρ c (Proc.devRef .tc main_arg5) = W0 m ρ c (Proc.devRef .tc main_arg5) :=
  (W6_of_ne m ρ c main_arg5 (by decide)).trans (w5_main_arg5 m ρ c)

theorem w1_main_arg6 (c : Dev nD) : W1 m ρ c (Proc.devRef .tc main_arg6) = W0 m ρ c (Proc.devRef .tc main_arg6) :=
  (show W1 m ρ c (Proc.devRef .tc main_arg6) = W0 m ρ c (Proc.devRef .tc main_arg6) from by untouched_by hostOps0)
theorem w2_main_arg6 (c : Dev nD) : W2 m ρ c (Proc.devRef .tc main_arg6) = W0 m ρ c (Proc.devRef .tc main_arg6) :=
  (show W2 m ρ c (Proc.devRef .tc main_arg6) = W1 m ρ c (Proc.devRef .tc main_arg6) from by untouched_by hostOps0_1).trans (w1_main_arg6 m ρ c)
theorem w3_main_arg6 (c : Dev nD) : W3 m ρ c (Proc.devRef .tc main_arg6) = W0 m ρ c (Proc.devRef .tc main_arg6) :=
  (show W3 m ρ c (Proc.devRef .tc main_arg6) = W2 m ρ c (Proc.devRef .tc main_arg6) from by untouched_by hostOps0_2).trans (w2_main_arg6 m ρ c)
theorem w4_main_arg6 (c : Dev nD) : W4 m ρ c (Proc.devRef .tc main_arg6) = W0 m ρ c (Proc.devRef .tc main_arg6) :=
  (W4_of_ne m ρ c main_arg6 (by decide)).trans (w3_main_arg6 m ρ c)
theorem w5_main_arg6 (c : Dev nD) : W5 m ρ c (Proc.devRef .tc main_arg6) = W0 m ρ c (Proc.devRef .tc main_arg6) :=
  (show W5 m ρ c (Proc.devRef .tc main_arg6) = W4 m ρ c (Proc.devRef .tc main_arg6) from by untouched_by hostOps1).trans (w4_main_arg6 m ρ c)
theorem w6_main_arg6 (c : Dev nD) : W6 m ρ c (Proc.devRef .tc main_arg6) = W0 m ρ c (Proc.devRef .tc main_arg6) :=
  (W6_of_ne m ρ c main_arg6 (by decide)).trans (w5_main_arg6 m ρ c)
theorem w7_main_arg6 (c : Dev nD) : W7 m ρ c (Proc.devRef .tc main_arg6) = W0 m ρ c (Proc.devRef .tc main_arg6) :=
  (show W7 m ρ c (Proc.devRef .tc main_arg6) = W6 m ρ c (Proc.devRef .tc main_arg6) from by untouched_by hostOps2).trans (w6_main_arg6 m ρ c)

theorem w1_main_arg7 (c : Dev nD) : W1 m ρ c (Proc.devRef .tc main_arg7) = W0 m ρ c (Proc.devRef .tc main_arg7) :=
  (show W1 m ρ c (Proc.devRef .tc main_arg7) = W0 m ρ c (Proc.devRef .tc main_arg7) from by untouched_by hostOps0)
theorem w2_main_arg7 (c : Dev nD) : W2 m ρ c (Proc.devRef .tc main_arg7) = W0 m ρ c (Proc.devRef .tc main_arg7) :=
  (show W2 m ρ c (Proc.devRef .tc main_arg7) = W1 m ρ c (Proc.devRef .tc main_arg7) from by untouched_by hostOps0_1).trans (w1_main_arg7 m ρ c)
theorem w3_main_arg7 (c : Dev nD) : W3 m ρ c (Proc.devRef .tc main_arg7) = W0 m ρ c (Proc.devRef .tc main_arg7) :=
  (show W3 m ρ c (Proc.devRef .tc main_arg7) = W2 m ρ c (Proc.devRef .tc main_arg7) from by untouched_by hostOps0_2).trans (w2_main_arg7 m ρ c)
theorem w4_main_arg7 (c : Dev nD) : W4 m ρ c (Proc.devRef .tc main_arg7) = W0 m ρ c (Proc.devRef .tc main_arg7) :=
  (W4_of_ne m ρ c main_arg7 (by decide)).trans (w3_main_arg7 m ρ c)
theorem w5_main_arg7 (c : Dev nD) : W5 m ρ c (Proc.devRef .tc main_arg7) = W0 m ρ c (Proc.devRef .tc main_arg7) :=
  (show W5 m ρ c (Proc.devRef .tc main_arg7) = W4 m ρ c (Proc.devRef .tc main_arg7) from by untouched_by hostOps1).trans (w4_main_arg7 m ρ c)
theorem w6_main_arg7 (c : Dev nD) : W6 m ρ c (Proc.devRef .tc main_arg7) = W0 m ρ c (Proc.devRef .tc main_arg7) :=
  (W6_of_ne m ρ c main_arg7 (by decide)).trans (w5_main_arg7 m ρ c)
theorem w7_main_arg7 (c : Dev nD) : W7 m ρ c (Proc.devRef .tc main_arg7) = W0 m ρ c (Proc.devRef .tc main_arg7) :=
  (show W7 m ρ c (Proc.devRef .tc main_arg7) = W6 m ρ c (Proc.devRef .tc main_arg7) from by untouched_by hostOps2).trans (w6_main_arg7 m ρ c)
theorem w8_main_arg7 (c : Dev nD) : W8 m ρ c (Proc.devRef .tc main_arg7) = W0 m ρ c (Proc.devRef .tc main_arg7) :=
  (W8_of_ne m ρ c main_arg7 (by decide)).trans (w7_main_arg7 m ρ c)

theorem w1_main_arg8 (c : Dev nD) : W1 m ρ c (Proc.devRef .tc main_arg8) = W0 m ρ c (Proc.devRef .tc main_arg8) :=
  (show W1 m ρ c (Proc.devRef .tc main_arg8) = W0 m ρ c (Proc.devRef .tc main_arg8) from by untouched_by hostOps0)
theorem w2_main_arg8 (c : Dev nD) : W2 m ρ c (Proc.devRef .tc main_arg8) = W0 m ρ c (Proc.devRef .tc main_arg8) :=
  (show W2 m ρ c (Proc.devRef .tc main_arg8) = W1 m ρ c (Proc.devRef .tc main_arg8) from by untouched_by hostOps0_1).trans (w1_main_arg8 m ρ c)
theorem w3_main_arg8 (c : Dev nD) : W3 m ρ c (Proc.devRef .tc main_arg8) = W0 m ρ c (Proc.devRef .tc main_arg8) :=
  (show W3 m ρ c (Proc.devRef .tc main_arg8) = W2 m ρ c (Proc.devRef .tc main_arg8) from by untouched_by hostOps0_2).trans (w2_main_arg8 m ρ c)
theorem w4_main_arg8 (c : Dev nD) : W4 m ρ c (Proc.devRef .tc main_arg8) = W0 m ρ c (Proc.devRef .tc main_arg8) :=
  (W4_of_ne m ρ c main_arg8 (by decide)).trans (w3_main_arg8 m ρ c)
theorem w5_main_arg8 (c : Dev nD) : W5 m ρ c (Proc.devRef .tc main_arg8) = W0 m ρ c (Proc.devRef .tc main_arg8) :=
  (show W5 m ρ c (Proc.devRef .tc main_arg8) = W4 m ρ c (Proc.devRef .tc main_arg8) from by untouched_by hostOps1).trans (w4_main_arg8 m ρ c)
theorem w6_main_arg8 (c : Dev nD) : W6 m ρ c (Proc.devRef .tc main_arg8) = W0 m ρ c (Proc.devRef .tc main_arg8) :=
  (W6_of_ne m ρ c main_arg8 (by decide)).trans (w5_main_arg8 m ρ c)
theorem w7_main_arg8 (c : Dev nD) : W7 m ρ c (Proc.devRef .tc main_arg8) = W0 m ρ c (Proc.devRef .tc main_arg8) :=
  (show W7 m ρ c (Proc.devRef .tc main_arg8) = W6 m ρ c (Proc.devRef .tc main_arg8) from by untouched_by hostOps2).trans (w6_main_arg8 m ρ c)
theorem w8_main_arg8 (c : Dev nD) : W8 m ρ c (Proc.devRef .tc main_arg8) = W0 m ρ c (Proc.devRef .tc main_arg8) :=
  (W8_of_ne m ρ c main_arg8 (by decide)).trans (w7_main_arg8 m ρ c)
theorem w9_main_arg8 (c : Dev nD) : W9 m ρ c (Proc.devRef .tc main_arg8) = W0 m ρ c (Proc.devRef .tc main_arg8) :=
  (show W9 m ρ c (Proc.devRef .tc main_arg8) = W8 m ρ c (Proc.devRef .tc main_arg8) from by untouched_by hostOps3).trans (w8_main_arg8 m ρ c)

theorem w1_main_arg9 (c : Dev nD) : W1 m ρ c (Proc.devRef .tc main_arg9) = W0 m ρ c (Proc.devRef .tc main_arg9) :=
  (show W1 m ρ c (Proc.devRef .tc main_arg9) = W0 m ρ c (Proc.devRef .tc main_arg9) from by untouched_by hostOps0)
theorem w2_main_arg9 (c : Dev nD) : W2 m ρ c (Proc.devRef .tc main_arg9) = W0 m ρ c (Proc.devRef .tc main_arg9) :=
  (show W2 m ρ c (Proc.devRef .tc main_arg9) = W1 m ρ c (Proc.devRef .tc main_arg9) from by untouched_by hostOps0_1).trans (w1_main_arg9 m ρ c)
theorem w3_main_arg9 (c : Dev nD) : W3 m ρ c (Proc.devRef .tc main_arg9) = W0 m ρ c (Proc.devRef .tc main_arg9) :=
  (show W3 m ρ c (Proc.devRef .tc main_arg9) = W2 m ρ c (Proc.devRef .tc main_arg9) from by untouched_by hostOps0_2).trans (w2_main_arg9 m ρ c)
theorem w4_main_arg9 (c : Dev nD) : W4 m ρ c (Proc.devRef .tc main_arg9) = W0 m ρ c (Proc.devRef .tc main_arg9) :=
  (W4_of_ne m ρ c main_arg9 (by decide)).trans (w3_main_arg9 m ρ c)
theorem w5_main_arg9 (c : Dev nD) : W5 m ρ c (Proc.devRef .tc main_arg9) = W0 m ρ c (Proc.devRef .tc main_arg9) :=
  (show W5 m ρ c (Proc.devRef .tc main_arg9) = W4 m ρ c (Proc.devRef .tc main_arg9) from by untouched_by hostOps1).trans (w4_main_arg9 m ρ c)
theorem w6_main_arg9 (c : Dev nD) : W6 m ρ c (Proc.devRef .tc main_arg9) = W0 m ρ c (Proc.devRef .tc main_arg9) :=
  (W6_of_ne m ρ c main_arg9 (by decide)).trans (w5_main_arg9 m ρ c)
theorem w7_main_arg9 (c : Dev nD) : W7 m ρ c (Proc.devRef .tc main_arg9) = W0 m ρ c (Proc.devRef .tc main_arg9) :=
  (show W7 m ρ c (Proc.devRef .tc main_arg9) = W6 m ρ c (Proc.devRef .tc main_arg9) from by untouched_by hostOps2).trans (w6_main_arg9 m ρ c)
theorem w8_main_arg9 (c : Dev nD) : W8 m ρ c (Proc.devRef .tc main_arg9) = W0 m ρ c (Proc.devRef .tc main_arg9) :=
  (W8_of_ne m ρ c main_arg9 (by decide)).trans (w7_main_arg9 m ρ c)
theorem w9_main_arg9 (c : Dev nD) : W9 m ρ c (Proc.devRef .tc main_arg9) = W0 m ρ c (Proc.devRef .tc main_arg9) :=
  (show W9 m ρ c (Proc.devRef .tc main_arg9) = W8 m ρ c (Proc.devRef .tc main_arg9) from by untouched_by hostOps3).trans (w8_main_arg9 m ρ c)
theorem w10_main_arg9 (c : Dev nD) : W10 m ρ c (Proc.devRef .tc main_arg9) = W0 m ρ c (Proc.devRef .tc main_arg9) :=
  (W10_of_ne m ρ c main_arg9 (by decide)).trans (w9_main_arg9 m ρ c)

end Cert.KernelIdeal.Carry

end
-- ==== Proof.Entry.lean ====
/-
  What each region finds in its windows when it is entered.

  Before each of the last four regions a stretch of host operations does one round of message passing on the previous
  region's output — wrap the arc sources, gather the source rows, scale each by its arc's weight, scatter-add into the
  target rows — and lays the next bias vector out as a one-row table. Read off the stretch, the table the region is
  entered with is the shared aggregation applied to the previous output and to the three arc arrays; those three have
  not changed since the first region was entered. The bias row holds the launched bias vector, the weight window the
  launched weight. The first region's two windows are the launched node features and first weight.
-/
import proofs.«123305_j73220602462459_1_alg».proof.Proof.Gen.KernelIdeal.Frame
import proofs.«123305_j73220602462459_1_alg».proof.Proof.Spec
import proofs.«123305_j73220602462459_1_alg».proof.Proof.CarryArcs
import proofs.«123305_j73220602462459_1_alg».proof.Proof.CarryWeights
import Idealize.ShloMosaic.Lib.StableHlo.Run
import Idealize.ShloMosaic.Lib.ValueIdx
import Idealize.ShloMosaic.Lib.ValueLayout

noncomputable section

set_option maxRecDepth 16384

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-- The arc sources, targets and weights as the first region finds them: what the host operations before it compute
    from the edge list. They are named here and opened only where the two programs are compared. -/
def src (c : Dev nD) : Cert.Gcn.Arcs := W3 m ρ c (Proc.devRef .tc main_v3)
@[inherit_doc src] def dst (c : Dev nD) : Cert.Gcn.Arcs := W3 m ρ c (Proc.devRef .tc main_v6)
@[inherit_doc src] def nrm (c : Dev nD) : Cert.Gcn.ArcWeights := W3 m ρ c (Proc.devRef .tc main_v29)

/-- The first region's windows: the node features and the first weight as launched. -/
theorem features (c : Dev nD) : V3 m ρ c main_arg0 = m ((c : Thread nD τ).loc main_arg0) := Carry.w3_main_arg0 m ρ c
theorem weight0 (c : Dev nD) : V3 m ρ c main_arg2 = m ((c : Thread nD τ).loc main_arg2) := Carry.w3_main_arg2 m ρ c

/-! ### Before region 1 -/

set_option maxHeartbeats 4000000 in
/-- The table region 1 is entered with: one round of message passing on the previous region's output, along the arcs
    as the first region found them (read off the stretch's sixteen operations at once, and named). -/
theorem table1 (c : Dev nD) :
    V5 m ρ c main_v43 = Cert.Gcn.spread (src m ρ c) (dst m ρ c) (nrm m ρ c) (W4 m ρ c (Proc.devRef .tc main_v30)) := by
  have raw : V5 m ρ c main_v43 = Cert.Gcn.spread (W4 m ρ c (Proc.devRef .tc main_v3)) (W4 m ρ c (Proc.devRef .tc main_v6))
      (W4 m ρ c (Proc.devRef .tc main_v29)) (W4 m ρ c (Proc.devRef .tc main_v30)) := by
    show StableHlo.after hostOps1 (W4 m ρ c) (Proc.devRef .tc main_v43) = _
    after_results_simp
    rfl
  rw [raw, Carry.w4_main_v3 m ρ c, Carry.w4_main_v6 m ρ c, Carry.w4_main_v29 m ρ c]
  rfl

/-- The bias region 1 is entered with: the bias vector as launched, laid out as one row. -/
theorem row1 (c : Dev nD) : V5 m ρ c main_v44 = Cert.Gcn.asRow (k := 128) (m ((c : Thread nD τ).loc main_arg3)) := by
  funext j
  obtain ⟨z, k, rfl⟩ : ∃ (z : Fin 1) (k : Fin 128), j = ix2 z k := ⟨j 0, j 1, eq_ix2 j⟩
  have raw : V5 m ρ c main_v44 (ix2 z k) = W4 m ρ c (Proc.devRef .tc main_arg3) (ix1 k) := by
    show StableHlo.after hostOps1 (W4 m ρ c) (Proc.devRef .tc main_v44) (ix2 z k) = _
    after_results
    exact ValueIdx.shapeCast_a_1a_apply (W4 m ρ c (Proc.devRef .tc main_arg3)) shapeCasts_S128_S1x128 z k
  exact raw.trans (congrFun (Carry.w4_main_arg3 m ρ c) (ix1 k))

/-- The weight region 1 is entered with: as launched. -/
theorem weight1 (c : Dev nD) : V5 m ρ c main_arg4 = m ((c : Thread nD τ).loc main_arg4) :=
  Carry.w5_main_arg4 m ρ c

/-! ### Before region 2 -/

set_option maxHeartbeats 4000000 in
/-- The table region 2 is entered with: one round of message passing on the previous region's output, along the arcs
    as the first region found them (read off the stretch's sixteen operations at once, and named). -/
theorem table2 (c : Dev nD) :
    V7 m ρ c main_v58 = Cert.Gcn.spread (src m ρ c) (dst m ρ c) (nrm m ρ c) (W6 m ρ c (Proc.devRef .tc main_v45)) := by
  have raw : V7 m ρ c main_v58 = Cert.Gcn.spread (W6 m ρ c (Proc.devRef .tc main_v3)) (W6 m ρ c (Proc.devRef .tc main_v6))
      (W6 m ρ c (Proc.devRef .tc main_v29)) (W6 m ρ c (Proc.devRef .tc main_v45)) := by
    show StableHlo.after hostOps2 (W6 m ρ c) (Proc.devRef .tc main_v58) = _
    after_results_simp
    rfl
  rw [raw, Carry.w6_main_v3 m ρ c, Carry.w6_main_v6 m ρ c, Carry.w6_main_v29 m ρ c]
  rfl

/-- The bias region 2 is entered with: the bias vector as launched, laid out as one row. -/
theorem row2 (c : Dev nD) : V7 m ρ c main_v59 = Cert.Gcn.asRow (k := 128) (m ((c : Thread nD τ).loc main_arg5)) := by
  funext j
  obtain ⟨z, k, rfl⟩ : ∃ (z : Fin 1) (k : Fin 128), j = ix2 z k := ⟨j 0, j 1, eq_ix2 j⟩
  have raw : V7 m ρ c main_v59 (ix2 z k) = W6 m ρ c (Proc.devRef .tc main_arg5) (ix1 k) := by
    show StableHlo.after hostOps2 (W6 m ρ c) (Proc.devRef .tc main_v59) (ix2 z k) = _
    after_results
    exact ValueIdx.shapeCast_a_1a_apply (W6 m ρ c (Proc.devRef .tc main_arg5)) shapeCasts_S128_S1x128 z k
  exact raw.trans (congrFun (Carry.w6_main_arg5 m ρ c) (ix1 k))

/-- The weight region 2 is entered with: as launched. -/
theorem weight2 (c : Dev nD) : V7 m ρ c main_arg6 = m ((c : Thread nD τ).loc main_arg6) :=
  Carry.w7_main_arg6 m ρ c

/-! ### Before region 3 -/

set_option maxHeartbeats 4000000 in
/-- The table region 3 is entered with: one round of message passing on the previous region's output, along the arcs
    as the first region found them (read off the stretch's sixteen operations at once, and named). -/
theorem table3 (c : Dev nD) :
    V9 m ρ c main_v73 = Cert.Gcn.spread (src m ρ c) (dst m ρ c) (nrm m ρ c) (W8 m ρ c (Proc.devRef .tc main_v60)) := by
  have raw : V9 m ρ c main_v73 = Cert.Gcn.spread (W8 m ρ c (Proc.devRef .tc main_v3)) (W8 m ρ c (Proc.devRef .tc main_v6))
      (W8 m ρ c (Proc.devRef .tc main_v29)) (W8 m ρ c (Proc.devRef .tc main_v60)) := by
    show StableHlo.after hostOps3 (W8 m ρ c) (Proc.devRef .tc main_v73) = _
    after_results_simp
    rfl
  rw [raw, Carry.w8_main_v3 m ρ c, Carry.w8_main_v6 m ρ c, Carry.w8_main_v29 m ρ c]
  rfl

/-- The bias region 3 is entered with: the bias vector as launched, laid out as one row. -/
theorem row3 (c : Dev nD) : V9 m ρ c main_v74 = Cert.Gcn.asRow (k := 128) (m ((c : Thread nD τ).loc main_arg7)) := by
  funext j
  obtain ⟨z, k, rfl⟩ : ∃ (z : Fin 1) (k : Fin 128), j = ix2 z k := ⟨j 0, j 1, eq_ix2 j⟩
  have raw : V9 m ρ c main_v74 (ix2 z k) = W8 m ρ c (Proc.devRef .tc main_arg7) (ix1 k) := by
    show StableHlo.after hostOps3 (W8 m ρ c) (Proc.devRef .tc main_v74) (ix2 z k) = _
    after_results
    exact ValueIdx.shapeCast_a_1a_apply (W8 m ρ c (Proc.devRef .tc main_arg7)) shapeCasts_S128_S1x128 z k
  exact raw.trans (congrFun (Carry.w8_main_arg7 m ρ c) (ix1 k))

/-- The weight region 3 is entered with: as launched. -/
theorem weight3 (c : Dev nD) : V9 m ρ c main_arg8 = m ((c : Thread nD τ).loc main_arg8) :=
  Carry.w9_main_arg8 m ρ c

/-! ### Before region 4 -/

set_option maxHeartbeats 4000000 in
/-- The table region 4 is entered with: one round of message passing on the previous region's output, along the arcs
    as the first region found them (read off the stretch's sixteen operations at once, and named). -/
theorem table4 (c : Dev nD) :
    V11 m ρ c main_v88 = Cert.Gcn.spread' (src m ρ c) (dst m ρ c) (nrm m ρ c) (W10 m ρ c (Proc.devRef .tc main_v75)) := by
  have raw : V11 m ρ c main_v88 = Cert.Gcn.spread' (W10 m ρ c (Proc.devRef .tc main_v3)) (W10 m ρ c (Proc.devRef .tc main_v6))
      (W10 m ρ c (Proc.devRef .tc main_v29)) (W10 m ρ c (Proc.devRef .tc main_v75)) := by
    show StableHlo.after hostOps4 (W10 m ρ c) (Proc.devRef .tc main_v88) = _
    after_results_simp
    rfl
  rw [raw, Carry.w10_main_v3 m ρ c, Carry.w10_main_v6 m ρ c, Carry.w10_main_v29 m ρ c]
  rfl

/-- The bias region 4 is entered with: the bias vector as launched, laid out as one row. -/
theorem row4 (c : Dev nD) : V11 m ρ c main_v89 = Cert.Gcn.asRow (k := 40) (m ((c : Thread nD τ).loc main_arg9)) := by
  funext j
  obtain ⟨z, k, rfl⟩ : ∃ (z : Fin 1) (k : Fin 40), j = ix2 z k := ⟨j 0, j 1, eq_ix2 j⟩
  have raw : V11 m ρ c main_v89 (ix2 z k) = W10 m ρ c (Proc.devRef .tc main_arg9) (ix1 k) := by
    show StableHlo.after hostOps4 (W10 m ρ c) (Proc.devRef .tc main_v89) (ix2 z k) = _
    after_results
    exact ValueIdx.shapeCast_a_1a_apply (W10 m ρ c (Proc.devRef .tc main_arg9)) shapeCasts_S40_S1x40 z k
  exact raw.trans (congrFun (Carry.w10_main_arg9 m ρ c) (ix1 k))

end Cert.KernelIdeal.Entry

end
-- ==== Proof.LibPlainDot.lean ====
/-
  A plain matrix product — an [M, K] operand times a [K, N] operand, the left one contracted on its second axis
  and the right one on its first, no batch axis — read at the entry (r, c) over the extended reals: the sum over
  k of the left operand at (r, k) times the right operand at (k, c). Stated once for the on-chip product
  accumulated into a zero splat and once for the host's dot_general, for any dimension record that is the plain
  one, so that both sides of a comparison land on the same sum over `Fin K`.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The contraction index of the plain product has one axis, of extent `K`. -/
theorem contr_rank : (DotDims.plain M K N).contr.rank = 1 := rfl
theorem contr_size : (DotDims.plain M K N).contr.size ⟨0, by rw [contr_rank]; exact Nat.one_pos⟩ = K := rfl

/-- The one-coordinate contraction index with coordinate `k`. -/
abbrev cidx (k : Fin K) : (DotDims.plain M K N).contr.Idx := (contrEquiv1 (DotDims.plain M K N) K contr_rank contr_size).symm k

/-- The left operand is read at row `r`, column `k`. -/
theorem lhsIdx_eq (r : Fin M) (c : Fin N) (k : Fin K) :
    (DotDims.plain M K N).lhsIdx (ix2 r c) (cidx k) = ix2 r k := by
  funext a
  apply Fin.ext
  match a with
  | ⟨0, _⟩ => rfl
  | ⟨1, _⟩ =>
    exact ((DotDims.plain M K N).lhsIdx_val_of_single rfl (ix2 r c) (cidx k)).trans
      (contrEquiv1_symm_val (DotDims.plain M K N) K contr_rank contr_size k)

/-- The right operand is read at row `k`, column `c`. -/
theorem rhsIdx_eq (r : Fin M) (c : Fin N) (k : Fin K) :
    (DotDims.plain M K N).rhsIdx (ix2 r c) (cidx k) = ix2 k c := by
  funext a
  apply Fin.ext
  match a with
  | ⟨0, _⟩ =>
    exact ((DotDims.plain M K N).rhsIdx_val_of_single rfl (ix2 r c) (cidx k)).trans
      (contrEquiv1_symm_val (DotDims.plain M K N) K contr_rank contr_size k)
  | ⟨1, _⟩ => rfl

/-- The contraction sum of the plain product, re-indexed over `Fin K`. -/
theorem sum_eq (l : (⟨2, ![M, K]⟩ : Shape).Idx → EReal) (r : (⟨2, ![K, N]⟩ : Shape).Idx → EReal) (p : Fin M) (c : Fin N) :
    (∑ q : (DotDims.plain M K N).contr.Idx, l ((DotDims.plain M K N).lhsIdx (ix2 p c) q) * r ((DotDims.plain M K N).rhsIdx (ix2 p c) q))
      = ∑ k : Fin K, l (ix2 p k) * r (ix2 k c) := by
  rw [← Equiv.sum_comp (contrEquiv1 (DotDims.plain M K N) K contr_rank contr_size).symm]
  refine Finset.sum_congr rfl fun k _ => ?_
  rw [lhsIdx_eq p c k, rhsIdx_eq p c k]

/-- The on-chip product accumulated into the zero splat, at entry `(p, c)`: the plain sum. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 p k) * r (ix2 k c) := by
  subst hd
  rw [Ideal.matmul_constant_zero_apply]
  exact sum_eq l r p c

/-- The host's dot_general at entry `(p, c)`: the same plain sum, whatever the precision and the schedule key. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (c : Fin N) :
    FloatOps.dotGeneral d prec sched l r (ix2 p c) = ∑ k : Fin K, l (ix2 p k) * r (ix2 k c) := by
  subst hd
  rw [Ideal.dotGeneral_apply]
  exact sum_eq l r p c

end Cert.PlainDot

end
-- ==== Proof.Payload.lean ====
/-
  What each of the five kernel bodies computes from the blocks it loads, read at one entry (p, c) of the block it
  stores, over the extended reals.

  * The first body multiplies a block of 10000 rows of x by the whole 128×128 weight: entry (p, c) is the sum over k
    of x(p, k) · W(k, c). The narrowing to bf16 before the product is the identity on extended reals, and the
    product is accumulated into a zero splat, so nothing is added to the sum.
  * The three middle bodies first add the bias row to every row of the block and clamp at zero, then multiply by the
    weight: entry (p, c) is the sum over k of max(a(p, k) + b(0, k), 0) · W(k, c). The bias arrives as a 1×128 row and
    is broadcast along the rows, so row p reads the row's only entry in column k. The last of the three has a
    128×40 weight.
  * The last body only adds the bias row: entry (p, c) is a(p, c) + b(0, c).
-/
import proofs.«123305_j73220602462459_1_alg».proof.Proof.Gen.KernelIdeal.Skeleton
import proofs.«123305_j73220602462459_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The zero the middle bodies clamp at: the word of +0.0, never evaluated. -/
abbrev zero : EReal := Ideal.ofBits .f32 0x00000000#32

/-- A block of rows times the weight. -/
theorem product_apply (x : Vec Ideal S10000x128 .f32) (w : Vec Ideal S128x128 .f32) (p : Fin 10000) (c : Fin 128) :
    k0_pay1 (F := Ideal) x w (ix2 p c) = ∑ k : Fin 128, x (ix2 p k) * w (ix2 k c) := by
  unfold k0_pay1
  exact Cert.PlainDot.matmul_zero_apply dot_S10000x128_S128x128_S10000x128_1_0_0_1_n_n rfl none _ _ p c

/-- One entry of the biased, clamped block: the three self-casts are the identity and the row broadcast reads
    the bias row's entry of the same column. -/
theorem clamp_apply (a : Vec Ideal S10000x128 .f32) (b : Vec Ideal S1x128 .f32) (p : Fin 10000) (k : Fin 128) :
    maximumf (addf (shapeCast S10000x128 a shapeCasts_S10000x128_S10000x128)
        (broadcastTo S10000x128 (shapeCast S1x128 (shapeCast S1x128 b shapeCasts_S1x128_S1x128) shapeCasts_S1x128_S1x128) broadcasts_S1x128_S10000x128))
      (broadcast S10000x128 (Scalar.ofBits (F := Ideal) .f32 0x00000000#32)) (ix2 p k)
    = max (a (ix2 p k) + b (ix2 (0 : Fin 1) k)) zero := by
  rw [shapeCast_self, shapeCast_self, shapeCast_self]
  show max (a (ix2 p k) + broadcastTo S10000x128 b broadcasts_S1x128_S10000x128 (ix2 p k)) _ = _
  rw [ValueIdx.broadcastTo_1b_ab_apply]
  rfl

/-- Bias, clamp at zero, then the 128×128 weight (the second body; the third is the same function). -/
theorem hidden_apply (a : Vec Ideal S10000x128 .f32) (b : Vec Ideal S1x128 .f32) (w : Vec Ideal S128x128 .f32) (p : Fin 10000) (c : Fin 128) :
    k1_pay1 (F := Ideal) a b w (ix2 p c) = ∑ k : Fin 128, max (a (ix2 p k) + b (ix2 (0 : Fin 1) k)) zero * w (ix2 k c) := by
  unfold k1_pay1
  refine (Cert.PlainDot.matmul_zero_apply dot_S10000x128_S128x128_S10000x128_1_0_0_1_n_n rfl none _ _ p c).trans ?_
  refine Finset.sum_congr rfl fun k _ => ?_
  exact congrArg (· * w (ix2 k c)) (clamp_apply a b p k)

theorem hidden'_apply (a : Vec Ideal S10000x128 .f32) (b : Vec Ideal S1x128 .f32) (w : Vec Ideal S128x128 .f32) (p : Fin 10000) (c : Fin 128) :
    k2_pay1 (F := Ideal) a b w (ix2 p c) = ∑ k : Fin 128, max (a (ix2 p k) + b (ix2 (0 : Fin 1) k)) zero * w (ix2 k c) := by
  unfold k2_pay1
  refine (Cert.PlainDot.matmul_zero_apply dot_S10000x128_S128x128_S10000x128_1_0_0_1_n_n rfl none _ _ p c).trans ?_
  refine Finset.sum_congr rfl fun k _ => ?_
  exact congrArg (· * w (ix2 k c)) (clamp_apply a b p k)

/-- Bias, clamp at zero, then the 128×40 weight (the fourth body). -/
theorem classes_apply (a : Vec Ideal S10000x128 .f32) (b : Vec Ideal S1x128 .f32) (w : Vec Ideal S128x40 .f32) (p : Fin 10000) (c : Fin 40) :
    k3_pay1 (F := Ideal) a b w (ix2 p c) = ∑ k : Fin 128, max (a (ix2 p k) + b (ix2 (0 : Fin 1) k)) zero * w (ix2 k c) := by
  unfold k3_pay1
  refine (Cert.PlainDot.matmul_zero_apply dot_S10000x128_S128x40_S10000x40_1_0_0_1_n_n rfl none _ _ p c).trans ?_
  refine Finset.sum_congr rfl fun k _ => ?_
  exact congrArg (· * w (ix2 k c)) (clamp_apply a b p k)

/-- The last body: the bias row added to every row of the block. -/
theorem shift_apply (a : Vec Ideal S10000x40 .f32) (b : Vec Ideal S1x40 .f32) (p : Fin 10000) (c : Fin 40) :
    k4_pay1 (F := Ideal) a b (ix2 p c) = a (ix2 p c) + b (ix2 (0 : Fin 1) c) := by
  unfold k4_pay1
  show shapeCast S10000x40 a shapeCasts_S10000x40_S10000x40 (ix2 p c)
      + broadcastTo S10000x40 (shapeCast S1x40 (shapeCast S1x40 b shapeCasts_S1x40_S1x40) shapeCasts_S1x40_S1x40) broadcasts_S1x40_S10000x40 (ix2 p c) = _
  rw [shapeCast_self, shapeCast_self, shapeCast_self, ValueIdx.broadcastTo_1b_ab_apply]

end Cert.KernelIdeal.Body

end
-- ==== Proof.Region0.lean ====
/-
  The first region: the node features times the first weight, in ten blocks of 10000 rows.

  At grid point t the region stages rows 10000·t … 10000·t + 9999 of x and the whole weight, and writes back the
  product of the two as rows 10000·t … of its output array. So what point t writes back is block t of ONE table, the
  whole product x · W0 read entry by entry: entry (p, q) of the block is the sum over k of x(10000·t + p, k) · W0(k, q),
  which is entry (10000·t + p, q) of the product. The ten blocks tile the 100000 rows (row r lies in block r / 10000),
  so after the region the output array is that table. All of this is stated at any contents V of the buffers when the
  region is entered.
-/
import proofs.«123305_j73220602462459_1_alg».proof.Proof.Gen.KernelIdeal.Frame
import proofs.«123305_j73220602462459_1_alg».proof.Proof.Payload
import proofs.«123305_j73220602462459_1_alg».proof.Proof.Spec
import Idealize.ShloMosaic.Lib.Pipeline.Value
import Idealize.ShloMosaic.Lib.ValueIdx

noncomputable section

set_option maxRecDepth 16384

namespace Cert.KernelIdeal.Region0

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The three index maps over the ten points: the rows window and the output window move together down the rows,
    nothing moves along the columns, and the weight is always block (0, 0). -/
theorem maps : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every block of rows is some point's. -/
theorem onto : ∀ q : Fin 10, ∃ t : Fin cfg0.N, win0_2.index t = ![q.val, 0] :=
  (by decide +kernel : ∀ q : Fin 10, ∃ t : Fin grid0.N, win0_2.index t = ![q.val, 0])

/-- What point t writes back is block t of the whole product. -/
theorem written (c : Dev nD) (t : Fin cfg0.N) :
    (dat0 V c).flushed 2 t = ((cfg0.win 2).blk t).view.read (Elt Ideal)
      (Cert.Gcn.product (n := 100000) (c := 128) (V c main_arg0) (V c main_arg2)) := by
  show (cfg0.win 2).cut (grid0.coords t) ((dat0 V c).after 2 t) = _
  rw [after0_2]
  unfold out0_2
  rw [View.canon_unit_zero origin]
  simp only [View.ld_unit_zero (S := S10000x128) origin, View.ld_unit_zero (S := S128x128) origin]
  obtain ⟨e0, e1, e2, e3, e4, e5⟩ := maps t
  funext j
  obtain ⟨p, q, rfl⟩ : ∃ (p : Fin 10000) (q : Fin 128), j = ix2 p q := ⟨j 0, j 1, eq_ix2 j⟩
  show k0_pay1 (F := Ideal) (iblk0 V c 0 t) (iblk0 V c 1 t) (ix2 p q)
    = Cert.Gcn.product (n := 100000) (c := 128) (V c main_arg0) (V c main_arg2) (((cfg0.win 2).blk t).view.emb (ix2 p q))
  refine (Body.product_apply (iblk0 V c 0 t) (iblk0 V c 1 t) p q).trans ?_
  unfold Cert.Gcn.product Cert.Gcn.productAt
  refine Finset.sum_congr rfl fun k _ => ?_
  have hl : iblk0 V c 0 t (ix2 p k) = V c main_arg0 (ix2 ((((cfg0.win 2).blk t).view.emb (ix2 p q)) 0) k) := by
    show V c main_arg0 (((cfg0.win 0).blk t).view.emb (ix2 p k)) = _
    refine congrArg (V c main_arg0) ?_
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * k.val = k.val; omega
  have hr : iblk0 V c 1 t (ix2 k q) = V c main_arg2 (ix2 k ((((cfg0.win 2).blk t).view.emb (ix2 p q)) 1)) := by
    show V c main_arg2 (((cfg0.win 1).blk t).view.emb (ix2 k q)) = _
    refine congrArg (V c main_arg2) ?_
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [hl, hr]

/-- A row-column pair is in point t's output block iff each coordinate is in the block's range. -/
theorem mem_block (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v30).slice (win0_2.rect t)).set ↔ _
  rw [View.set_slice_whole, Rect.mem_set_unit]
  exact Iff.rfl

/-- The ten blocks tile the rows: row r is in block r / 10000. -/
theorem covered (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- After the region its output array is the whole product of the two arrays it was entered with. -/
theorem array (c : Dev nD) : (dat0 V c).arrAt 2 cfg0.N
    = Cert.Gcn.product (n := 100000) (c := 128) (V c main_arg0) (V c main_arg2) :=
  (dat0 V c).arrAt_eq_of_cover 2 _ (fun t _ => written V c t) covered

end Cert.KernelIdeal.Region0

end
-- ==== Proof.Region1.lean ====
/-
  Region 1 of the five: an aggregated table, biased and clamped at zero, times the next weight — in ten blocks of
  10000 rows.

  At grid point t the region stages rows 10000·t … 10000·t + 9999 of the aggregated table, the bias laid out as one
  row of 128, and the whole 128×128 weight. Its body adds the bias row to every staged row, clamps at zero and multiplies
  by the weight; the result goes back as rows 10000·t … of the output array. Entry (p, q) of what point t writes is the
  sum over k of max(a(10000·t + p, k) + b(0, k), 0) · W(k, q): entry (10000·t + p, q) of ONE table, the same expression
  with the row free. The ten blocks tile the 100000 rows, so after the region the output array is that table — for any
  contents V of the buffers when the region is entered.
-/
import proofs.«123305_j73220602462459_1_alg».proof.Proof.Gen.KernelIdeal.Frame
import proofs.«123305_j73220602462459_1_alg».proof.Proof.Payload
import proofs.«123305_j73220602462459_1_alg».proof.Proof.Spec
import Idealize.ShloMosaic.Lib.Pipeline.Value
import Idealize.ShloMosaic.Lib.ValueIdx

noncomputable section

set_option maxRecDepth 16384

namespace Cert.KernelIdeal.Region1

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The four index maps over the ten points: the table's window and the output window move together down the rows,
    nothing moves along the columns, and the bias row and the weight are always block (0, 0). -/
theorem maps : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 9 :=
  (by decide +kernel : ∀ t : Fin grid1.N, _)

/-- Every block of rows is some point's. -/
theorem onto : ∀ q : Fin 10, ∃ t : Fin cfg1.N, win1_3.index t = ![q.val, 0] :=
  (by decide +kernel : ∀ q : Fin 10, ∃ t : Fin grid1.N, win1_3.index t = ![q.val, 0])

/-- What point t writes back is block t of the one whole table. -/
theorem written (c : Dev nD) (t : Fin cfg1.N) :
    (dat1 V c).flushed 3 t = ((cfg1.win 3).blk t).view.read (Elt Ideal)
      (Cert.Gcn.hiddenRow (n := 100000) (c := 128) (V c main_v43) (V c main_v44) (V c main_arg4)) := by
  show (cfg1.win 3).cut (grid1.coords t) ((dat1 V c).after 3 t) = _
  rw [after1_3]
  unfold out1_3
  rw [View.canon_unit_zero origin]
  simp only [View.ld_unit_zero (S := S10000x128) origin, View.ld_unit_zero (S := S1x128) origin, View.ld_unit_zero (S := S128x128) origin]
  obtain ⟨e0, e1, e2, e3, e4, e5, e6, e7⟩ := maps t
  funext j
  obtain ⟨p, q, rfl⟩ : ∃ (p : Fin 10000) (q : Fin 128), j = ix2 p q := ⟨j 0, j 1, eq_ix2 j⟩
  show k1_pay1 (F := Ideal) (iblk1 V c 0 t) (iblk1 V c 1 t) (iblk1 V c 2 t) (ix2 p q)
    = Cert.Gcn.hiddenRow (n := 100000) (c := 128) (V c main_v43) (V c main_v44) (V c main_arg4) (((cfg1.win 3).blk t).view.emb (ix2 p q))
  refine (Body.hidden_apply (iblk1 V c 0 t) (iblk1 V c 1 t) (iblk1 V c 2 t) p q).trans ?_
  unfold Cert.Gcn.hiddenRow
  refine Finset.sum_congr rfl fun k _ => ?_
  have ha : iblk1 V c 0 t (ix2 p k) = V c main_v43 (ix2 ((((cfg1.win 3).blk t).view.emb (ix2 p q)) 0) k) := by
    show V c main_v43 (((cfg1.win 0).blk t).view.emb (ix2 p k)) = _
    refine congrArg (V c main_v43) ?_
    funext a; apply Fin.ext
    match a with
    | ⟨0, _⟩ => show win1_0.index t (0 : Fin 2) * 10000 + 1 * p.val = win1_3.index t (0 : Fin 2) * 10000 + 1 * p.val; omega
    | ⟨1, _⟩ => show win1_0.index t (1 : Fin 2) * 128 + 1 * k.val = k.val; omega
  have hb : iblk1 V c 1 t (ix2 (0 : Fin 1) k) = V c main_v44 (ix2 (0 : Fin 1) k) := by
    show V c main_v44 (((cfg1.win 1).blk t).view.emb (ix2 (0 : Fin 1) k)) = _
    refine congrArg (V c main_v44) ?_
    funext a; apply Fin.ext
    match a with
    | ⟨0, _⟩ => show win1_1.index t (0 : Fin 2) * 1 + 1 * 0 = 0; omega
    | ⟨1, _⟩ => show win1_1.index t (1 : Fin 2) * 128 + 1 * k.val = k.val; omega
  have hw : iblk1 V c 2 t (ix2 k q) = V c main_arg4 (ix2 k ((((cfg1.win 3).blk t).view.emb (ix2 p q)) 1)) := by
    show V c main_arg4 (((cfg1.win 2).blk t).view.emb (ix2 k q)) = _
    refine congrArg (V c main_arg4) ?_
    funext a; apply Fin.ext
    match a with
    | ⟨0, _⟩ => show win1_2.index t (0 : Fin 2) * 128 + 1 * k.val = k.val; omega
    | ⟨1, _⟩ => show win1_2.index t (1 : Fin 2) * 128 + 1 * q.val = win1_3.index t (1 : Fin 2) * 128 + 1 * q.val; omega
  rw [ha, hb, hw]

/-- A row-column pair is in point t's output block iff each coordinate is in the block's range. -/
theorem mem_block (t : Fin cfg1.N) (i : S100000x128.Idx) :
    i ∈ ((cfg1.win 3).blk t).view.set ↔ ∀ a : Fin 2, win1_3.index t a * S10000x128.size a ≤ (i a).val
      ∧ (i a).val < win1_3.index t a * S10000x128.size a + S10000x128.size a := by
  show i ∈ ((View.whole main_v45).slice (win1_3.rect t)).set ↔ _
  rw [View.set_slice_whole, Rect.mem_set_unit]
  exact Iff.rfl

/-- The ten blocks tile the rows: row r is in block r / 10000. -/
theorem covered (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 128 ≤ (i 1).val ∧ (i 1).val < win1_3.index t (1 : Fin 2) * 128 + 128; omega

/-- After the region its output array is the whole table: the entered table biased, clamped and multiplied. -/
theorem array (c : Dev nD) : (dat1 V c).arrAt 3 cfg1.N
    = Cert.Gcn.hiddenRow (n := 100000) (c := 128) (V c main_v43) (V c main_v44) (V c main_arg4) :=
  (dat1 V c).arrAt_eq_of_cover 3 _ (fun t _ => written V c t) covered

end Cert.KernelIdeal.Region1

end
-- ==== Proof.Region2.lean ====
/-
  Region 2 of the five: an aggregated table, biased and clamped at zero, times the next weight — in ten blocks of
  10000 rows.

  At grid point t the region stages rows 10000·t … 10000·t + 9999 of the aggregated table, the bias laid out as one
  row of 128, and the whole 128×128 weight. Its body adds the bias row to every staged row, clamps at zero and multiplies
  by the weight; the result goes back as rows 10000·t … of the output array. Entry (p, q) of what point t writes is the
  sum over k of max(a(10000·t + p, k) + b(0, k), 0) · W(k, q): entry (10000·t + p, q) of ONE table, the same expression
  with the row free. The ten blocks tile the 100000 rows, so after the region the output array is that table — for any
  contents V of the buffers when the region is entered.
-/
import proofs.«123305_j73220602462459_1_alg».proof.Proof.Gen.KernelIdeal.Frame
import proofs.«123305_j73220602462459_1_alg».proof.Proof.Payload
import proofs.«123305_j73220602462459_1_alg».proof.Proof.Spec
import Idealize.ShloMosaic.Lib.Pipeline.Value
import Idealize.ShloMosaic.Lib.ValueIdx

noncomputable section

set_option maxRecDepth 16384

namespace Cert.KernelIdeal.Region2

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The four index maps over the ten points: the table's window and the output window move together down the rows,
    nothing moves along the columns, and the bias row and the weight are always block (0, 0). -/
theorem maps : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 9 :=
  (by decide +kernel : ∀ t : Fin grid2.N, _)

/-- Every block of rows is some point's. -/
theorem onto : ∀ q : Fin 10, ∃ t : Fin cfg2.N, win2_3.index t = ![q.val, 0] :=
  (by decide +kernel : ∀ q : Fin 10, ∃ t : Fin grid2.N, win2_3.index t = ![q.val, 0])

/-- What point t writes back is block t of the one whole table. -/
theorem written (c : Dev nD) (t : Fin cfg2.N) :
    (dat2 V c).flushed 3 t = ((cfg2.win 3).blk t).view.read (Elt Ideal)
      (Cert.Gcn.hiddenRow (n := 100000) (c := 128) (V c main_v58) (V c main_v59) (V c main_arg6)) := by
  show (cfg2.win 3).cut (grid2.coords t) ((dat2 V c).after 3 t) = _
  rw [after2_3]
  unfold out2_3
  rw [View.canon_unit_zero origin]
  simp only [View.ld_unit_zero (S := S10000x128) origin, View.ld_unit_zero (S := S1x128) origin, View.ld_unit_zero (S := S128x128) origin]
  obtain ⟨e0, e1, e2, e3, e4, e5, e6, e7⟩ := maps t
  funext j
  obtain ⟨p, q, rfl⟩ : ∃ (p : Fin 10000) (q : Fin 128), j = ix2 p q := ⟨j 0, j 1, eq_ix2 j⟩
  show k2_pay1 (F := Ideal) (iblk2 V c 0 t) (iblk2 V c 1 t) (iblk2 V c 2 t) (ix2 p q)
    = Cert.Gcn.hiddenRow (n := 100000) (c := 128) (V c main_v58) (V c main_v59) (V c main_arg6) (((cfg2.win 3).blk t).view.emb (ix2 p q))
  refine (Body.hidden'_apply (iblk2 V c 0 t) (iblk2 V c 1 t) (iblk2 V c 2 t) p q).trans ?_
  unfold Cert.Gcn.hiddenRow
  refine Finset.sum_congr rfl fun k _ => ?_
  have ha : iblk2 V c 0 t (ix2 p k) = V c main_v58 (ix2 ((((cfg2.win 3).blk t).view.emb (ix2 p q)) 0) k) := by
    show V c main_v58 (((cfg2.win 0).blk t).view.emb (ix2 p k)) = _
    refine congrArg (V c main_v58) ?_
    funext a; apply Fin.ext
    match a with
    | ⟨0, _⟩ => show win2_0.index t (0 : Fin 2) * 10000 + 1 * p.val = win2_3.index t (0 : Fin 2) * 10000 + 1 * p.val; omega
    | ⟨1, _⟩ => show win2_0.index t (1 : Fin 2) * 128 + 1 * k.val = k.val; omega
  have hb : iblk2 V c 1 t (ix2 (0 : Fin 1) k) = V c main_v59 (ix2 (0 : Fin 1) k) := by
    show V c main_v59 (((cfg2.win 1).blk t).view.emb (ix2 (0 : Fin 1) k)) = _
    refine congrArg (V c main_v59) ?_
    funext a; apply Fin.ext
    match a with
    | ⟨0, _⟩ => show win2_1.index t (0 : Fin 2) * 1 + 1 * 0 = 0; omega
    | ⟨1, _⟩ => show win2_1.index t (1 : Fin 2) * 128 + 1 * k.val = k.val; omega
  have hw : iblk2 V c 2 t (ix2 k q) = V c main_arg6 (ix2 k ((((cfg2.win 3).blk t).view.emb (ix2 p q)) 1)) := by
    show V c main_arg6 (((cfg2.win 2).blk t).view.emb (ix2 k q)) = _
    refine congrArg (V c main_arg6) ?_
    funext a; apply Fin.ext
    match a with
    | ⟨0, _⟩ => show win2_2.index t (0 : Fin 2) * 128 + 1 * k.val = k.val; omega
    | ⟨1, _⟩ => show win2_2.index t (1 : Fin 2) * 128 + 1 * q.val = win2_3.index t (1 : Fin 2) * 128 + 1 * q.val; omega
  rw [ha, hb, hw]

/-- A row-column pair is in point t's output block iff each coordinate is in the block's range. -/
theorem mem_block (t : Fin cfg2.N) (i : S100000x128.Idx) :
    i ∈ ((cfg2.win 3).blk t).view.set ↔ ∀ a : Fin 2, win2_3.index t a * S10000x128.size a ≤ (i a).val
      ∧ (i a).val < win2_3.index t a * S10000x128.size a + S10000x128.size a := by
  show i ∈ ((View.whole main_v60).slice (win2_3.rect t)).set ↔ _
  rw [View.set_slice_whole, Rect.mem_set_unit]
  exact Iff.rfl

/-- The ten blocks tile the rows: row r is in block r / 10000. -/
theorem covered (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ := onto ⟨(i 0).val / 10000, by omega⟩
  have q0 : win2_3.index t (0 : Fin 2) = (i 0).val / 10000 := congrFun ht 0
  have q1 : win2_3.index t (1 : Fin 2) = 0 := congrFun ht 1
  refine ⟨t, flush2_3 t, ?_⟩
  rw [mem_block]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 128 ≤ (i 1).val ∧ (i 1).val < win2_3.index t (1 : Fin 2) * 128 + 128; omega

/-- After the region its output array is the whole table: the entered table biased, clamped and multiplied. -/
theorem array (c : Dev nD) : (dat2 V c).arrAt 3 cfg2.N
    = Cert.Gcn.hiddenRow (n := 100000) (c := 128) (V c main_v58) (V c main_v59) (V c main_arg6) :=
  (dat2 V c).arrAt_eq_of_cover 3 _ (fun t _ => written V c t) covered

end Cert.KernelIdeal.Region2

end
-- ==== Proof.Region3.lean ====
/-
  Region 3 of the five: an aggregated table, biased and clamped at zero, times the next weight — in ten blocks of
  10000 rows.

  At grid point t the region stages rows 10000·t … 10000·t + 9999 of the aggregated table, the bias laid out as one
  row of 128, and the whole 128×40 weight. Its body adds the bias row to every staged row, clamps at zero and multiplies
  by the weight; the result goes back as rows 10000·t … of the output array. Entry (p, q) of what point t writes is the
  sum over k of max(a(10000·t + p, k) + b(0, k), 0) · W(k, q): entry (10000·t + p, q) of ONE table, the same expression
  with the row free. The ten blocks tile the 100000 rows, so after the region the output array is that table — for any
  contents V of the buffers when the region is entered.
-/
import proofs.«123305_j73220602462459_1_alg».proof.Proof.Gen.KernelIdeal.Frame
import proofs.«123305_j73220602462459_1_alg».proof.Proof.Payload
import proofs.«123305_j73220602462459_1_alg».proof.Proof.Spec
import Idealize.ShloMosaic.Lib.Pipeline.Value
import Idealize.ShloMosaic.Lib.ValueIdx

noncomputable section

set_option maxRecDepth 16384

namespace Cert.KernelIdeal.Region3

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The four index maps over the ten points: the table's window and the output window move together down the rows,
    nothing moves along the columns, and the bias row and the weight are always block (0, 0). -/
theorem maps : ∀ t : Fin cfg3.N, win3_0.index t (0 : Fin 2) = win3_3.index t (0 : Fin 2)
    ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (1 : Fin 2) = 0 ∧ win3_3.index t (0 : Fin 2) ≤ 9 :=
  (by decide +kernel : ∀ t : Fin grid3.N, _)

/-- Every block of rows is some point's. -/
theorem onto : ∀ q : Fin 10, ∃ t : Fin cfg3.N, win3_3.index t = ![q.val, 0] :=
  (by decide +kernel : ∀ q : Fin 10, ∃ t : Fin grid3.N, win3_3.index t = ![q.val, 0])

/-- What point t writes back is block t of the one whole table. -/
theorem written (c : Dev nD) (t : Fin cfg3.N) :
    (dat3 V c).flushed 3 t = ((cfg3.win 3).blk t).view.read (Elt Ideal)
      (Cert.Gcn.hiddenRow (n := 100000) (c := 40) (V c main_v73) (V c main_v74) (V c main_arg8)) := by
  show (cfg3.win 3).cut (grid3.coords t) ((dat3 V c).after 3 t) = _
  rw [after3_3]
  unfold out3_3
  rw [View.canon_unit_zero origin]
  simp only [View.ld_unit_zero (S := S10000x128) origin, View.ld_unit_zero (S := S1x128) origin, View.ld_unit_zero (S := S128x40) origin]
  obtain ⟨e0, e1, e2, e3, e4, e5, e6, e7⟩ := maps t
  funext j
  obtain ⟨p, q, rfl⟩ : ∃ (p : Fin 10000) (q : Fin 40), j = ix2 p q := ⟨j 0, j 1, eq_ix2 j⟩
  show k3_pay1 (F := Ideal) (iblk3 V c 0 t) (iblk3 V c 1 t) (iblk3 V c 2 t) (ix2 p q)
    = Cert.Gcn.hiddenRow (n := 100000) (c := 40) (V c main_v73) (V c main_v74) (V c main_arg8) (((cfg3.win 3).blk t).view.emb (ix2 p q))
  refine (Body.classes_apply (iblk3 V c 0 t) (iblk3 V c 1 t) (iblk3 V c 2 t) p q).trans ?_
  unfold Cert.Gcn.hiddenRow
  refine Finset.sum_congr rfl fun k _ => ?_
  have ha : iblk3 V c 0 t (ix2 p k) = V c main_v73 (ix2 ((((cfg3.win 3).blk t).view.emb (ix2 p q)) 0) k) := by
    show V c main_v73 (((cfg3.win 0).blk t).view.emb (ix2 p k)) = _
    refine congrArg (V c main_v73) ?_
    funext a; apply Fin.ext
    match a with
    | ⟨0, _⟩ => show win3_0.index t (0 : Fin 2) * 10000 + 1 * p.val = win3_3.index t (0 : Fin 2) * 10000 + 1 * p.val; omega
    | ⟨1, _⟩ => show win3_0.index t (1 : Fin 2) * 128 + 1 * k.val = k.val; omega
  have hb : iblk3 V c 1 t (ix2 (0 : Fin 1) k) = V c main_v74 (ix2 (0 : Fin 1) k) := by
    show V c main_v74 (((cfg3.win 1).blk t).view.emb (ix2 (0 : Fin 1) k)) = _
    refine congrArg (V c main_v74) ?_
    funext a; apply Fin.ext
    match a with
    | ⟨0, _⟩ => show win3_1.index t (0 : Fin 2) * 1 + 1 * 0 = 0; omega
    | ⟨1, _⟩ => show win3_1.index t (1 : Fin 2) * 128 + 1 * k.val = k.val; omega
  have hw : iblk3 V c 2 t (ix2 k q) = V c main_arg8 (ix2 k ((((cfg3.win 3).blk t).view.emb (ix2 p q)) 1)) := by
    show V c main_arg8 (((cfg3.win 2).blk t).view.emb (ix2 k q)) = _
    refine congrArg (V c main_arg8) ?_
    funext a; apply Fin.ext
    match a with
    | ⟨0, _⟩ => show win3_2.index t (0 : Fin 2) * 128 + 1 * k.val = k.val; omega
    | ⟨1, _⟩ => show win3_2.index t (1 : Fin 2) * 40 + 1 * q.val = win3_3.index t (1 : Fin 2) * 40 + 1 * q.val; omega
  rw [ha, hb, hw]

/-- A row-column pair is in point t's output block iff each coordinate is in the block's range. -/
theorem mem_block (t : Fin cfg3.N) (i : S100000x40.Idx) :
    i ∈ ((cfg3.win 3).blk t).view.set ↔ ∀ a : Fin 2, win3_3.index t a * S10000x40.size a ≤ (i a).val
      ∧ (i a).val < win3_3.index t a * S10000x40.size a + S10000x40.size a := by
  show i ∈ ((View.whole main_v75).slice (win3_3.rect t)).set ↔ _
  rw [View.set_slice_whole, Rect.mem_set_unit]
  exact Iff.rfl

/-- The ten blocks tile the rows: row r is in block r / 10000. -/
theorem covered (i : S100000x40.Idx) : ∃ t : Fin cfg3.N, (cfg3.win 3).flush t = true ∧ i ∈ ((cfg3.win 3).blk t).view.set := by
  have hi0 : (i 0).val < 100000 := (i 0).isLt
  have hi1 : (i 1).val < 40 := (i 1).isLt
  obtain ⟨t, ht⟩ := onto ⟨(i 0).val / 10000, by omega⟩
  have q0 : win3_3.index t (0 : Fin 2) = (i 0).val / 10000 := congrFun ht 0
  have q1 : win3_3.index t (1 : Fin 2) = 0 := congrFun ht 1
  refine ⟨t, flush3_3 t, ?_⟩
  rw [mem_block]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 40 ≤ (i 1).val ∧ (i 1).val < win3_3.index t (1 : Fin 2) * 40 + 40; omega

/-- After the region its output array is the whole table: the entered table biased, clamped and multiplied. -/
theorem array (c : Dev nD) : (dat3 V c).arrAt 3 cfg3.N
    = Cert.Gcn.hiddenRow (n := 100000) (c := 40) (V c main_v73) (V c main_v74) (V c main_arg8) :=
  (dat3 V c).arrAt_eq_of_cover 3 _ (fun t _ => written V c t) covered

end Cert.KernelIdeal.Region3

end
-- ==== Proof.Region4.lean ====
/-
  The last region: the last aggregated table plus the last bias row, in ten blocks of 10000 rows.

  At grid point t the region stages rows 10000·t … 10000·t + 9999 of the 40-wide aggregated table and the bias laid
  out as one row of 40, adds the row to every staged row, and writes the sums back as rows 10000·t … of the output
  array. Entry (p, q) of what point t writes is a(10000·t + p, q) + b(0, q): entry (10000·t + p, q) of ONE table. The ten
  blocks tile the 100000 rows, so after the region the output array — the program's result — is that table, for any
  contents V of the buffers when the region is entered.
-/
import proofs.«123305_j73220602462459_1_alg».proof.Proof.Gen.KernelIdeal.Frame
import proofs.«123305_j73220602462459_1_alg».proof.Proof.Payload
import proofs.«123305_j73220602462459_1_alg».proof.Proof.Spec
import Idealize.ShloMosaic.Lib.Pipeline.Value
import Idealize.ShloMosaic.Lib.ValueIdx

noncomputable section

set_option maxRecDepth 16384

namespace Cert.KernelIdeal.Region4

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The three index maps over the ten points: the table's window and the output window move together down the rows,
    nothing moves along the columns, and the bias row is always block (0, 0). -/
theorem maps : ∀ t : Fin cfg4.N, win4_0.index t (0 : Fin 2) = win4_2.index t (0 : Fin 2)
    ∧ win4_0.index t (1 : Fin 2) = win4_2.index t (1 : Fin 2)
    ∧ win4_1.index t (0 : Fin 2) = 0 ∧ win4_1.index t (1 : Fin 2) = 0
    ∧ win4_2.index t (1 : Fin 2) = 0 ∧ win4_2.index t (0 : Fin 2) ≤ 9 :=
  (by decide +kernel : ∀ t : Fin grid4.N, _)

/-- Every block of rows is some point's. -/
theorem onto : ∀ q : Fin 10, ∃ t : Fin cfg4.N, win4_2.index t = ![q.val, 0] :=
  (by decide +kernel : ∀ q : Fin 10, ∃ t : Fin grid4.N, win4_2.index t = ![q.val, 0])

/-- What point t writes back is block t of the one whole table. -/
theorem written (c : Dev nD) (t : Fin cfg4.N) :
    (dat4 V c).flushed 2 t = ((cfg4.win 2).blk t).view.read (Elt Ideal)
      (Cert.Gcn.shiftRow (n := 100000) (c := 40) (V c main_v88) (V c main_v89)) := by
  show (cfg4.win 2).cut (grid4.coords t) ((dat4 V c).after 2 t) = _
  rw [after4_2]
  unfold out4_2
  rw [View.canon_unit_zero origin]
  simp only [View.ld_unit_zero (S := S10000x40) origin, View.ld_unit_zero (S := S1x40) origin]
  obtain ⟨e0, e1, e2, e3, e4, e5⟩ := maps t
  funext j
  obtain ⟨p, q, rfl⟩ : ∃ (p : Fin 10000) (q : Fin 40), j = ix2 p q := ⟨j 0, j 1, eq_ix2 j⟩
  show k4_pay1 (F := Ideal) (iblk4 V c 0 t) (iblk4 V c 1 t) (ix2 p q)
    = Cert.Gcn.shiftRow (n := 100000) (c := 40) (V c main_v88) (V c main_v89) (((cfg4.win 2).blk t).view.emb (ix2 p q))
  refine (Body.shift_apply (iblk4 V c 0 t) (iblk4 V c 1 t) p q).trans ?_
  unfold Cert.Gcn.shiftRow
  have ha : iblk4 V c 0 t (ix2 p q) = V c main_v88 (((cfg4.win 2).blk t).view.emb (ix2 p q)) := by
    show V c main_v88 (((cfg4.win 0).blk t).view.emb (ix2 p q)) = _
    refine congrArg (V c main_v88) ?_
    funext a; apply Fin.ext
    match a with
    | ⟨0, _⟩ => show win4_0.index t (0 : Fin 2) * 10000 + 1 * p.val = win4_2.index t (0 : Fin 2) * 10000 + 1 * p.val; omega
    | ⟨1, _⟩ => show win4_0.index t (1 : Fin 2) * 40 + 1 * q.val = win4_2.index t (1 : Fin 2) * 40 + 1 * q.val; omega
  have hb : iblk4 V c 1 t (ix2 (0 : Fin 1) q) = V c main_v89 (ix2 (0 : Fin 1) ((((cfg4.win 2).blk t).view.emb (ix2 p q)) 1)) := by
    show V c main_v89 (((cfg4.win 1).blk t).view.emb (ix2 (0 : Fin 1) q)) = _
    refine congrArg (V c main_v89) ?_
    funext a; apply Fin.ext
    match a with
    | ⟨0, _⟩ => show win4_1.index t (0 : Fin 2) * 1 + 1 * 0 = 0; omega
    | ⟨1, _⟩ => show win4_1.index t (1 : Fin 2) * 40 + 1 * q.val = win4_2.index t (1 : Fin 2) * 40 + 1 * q.val; omega
  rw [ha, hb]

/-- A row-column pair is in point t's output block iff each coordinate is in the block's range. -/
theorem mem_block (t : Fin cfg4.N) (i : S100000x40.Idx) :
    i ∈ ((cfg4.win 2).blk t).view.set ↔ ∀ a : Fin 2, win4_2.index t a * S10000x40.size a ≤ (i a).val
      ∧ (i a).val < win4_2.index t a * S10000x40.size a + S10000x40.size a := by
  show i ∈ ((View.whole main_v90).slice (win4_2.rect t)).set ↔ _
  rw [View.set_slice_whole, Rect.mem_set_unit]
  exact Iff.rfl

/-- The ten blocks tile the rows: row r is in block r / 10000. -/
theorem covered (i : S100000x40.Idx) : ∃ t : Fin cfg4.N, (cfg4.win 2).flush t = true ∧ i ∈ ((cfg4.win 2).blk t).view.set := by
  have hi0 : (i 0).val < 100000 := (i 0).isLt
  have hi1 : (i 1).val < 40 := (i 1).isLt
  obtain ⟨t, ht⟩ := onto ⟨(i 0).val / 10000, by omega⟩
  have q0 : win4_2.index t (0 : Fin 2) = (i 0).val / 10000 := congrFun ht 0
  have q1 : win4_2.index t (1 : Fin 2) = 0 := congrFun ht 1
  refine ⟨t, flush4_2 t, ?_⟩
  rw [mem_block]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 40 ≤ (i 1).val ∧ (i 1).val < win4_2.index t (1 : Fin 2) * 40 + 40; omega

/-- After the region its output array — the program's result — is the entered table plus the bias row. -/
theorem array (c : Dev nD) : (dat4 V c).arrAt 2 cfg4.N
    = Cert.Gcn.shiftRow (n := 100000) (c := 40) (V c main_v88) (V c main_v89) :=
  (dat4 V c).arrAt_eq_of_cover 2 _ (fun t _ => written V c t) covered

end Cert.KernelIdeal.Region4

end
-- ==== Proof.KernelValue.lean ====
/-
  The kernel's result as the whole network of its arguments.

  Region by region: after the first region its output array is x · W0; after each of the next three the output array
  is the previous output aggregated along the arcs, biased, clamped at zero and multiplied by the next weight; after
  the fifth it is the last aggregation plus the last bias row. Each step joins three facts: what the region leaves of
  its output window (the block-to-array modules), what it found in its input windows (the entry values), and the
  previous step. The arc arrays enter only as the three named values the first region found.
-/
import proofs.«123305_j73220602462459_1_alg».proof.Proof.Entry
import proofs.«123305_j73220602462459_1_alg».proof.Proof.Region0
import proofs.«123305_j73220602462459_1_alg».proof.Proof.Region1
import proofs.«123305_j73220602462459_1_alg».proof.Proof.Region2
import proofs.«123305_j73220602462459_1_alg».proof.Proof.Region3
import proofs.«123305_j73220602462459_1_alg».proof.Proof.Region4

noncomputable section

set_option maxRecDepth 16384

namespace Cert.KernelIdeal.Layers

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- After the first region: the node features times the first weight. -/
theorem after0 (c : Dev nD) : W4 m ρ c (Proc.devRef .tc main_v30) = (Cert.Gcn.product (n := 100000) (c := 128) (m ((c : Thread nD τ).loc main_arg0)) (m ((c : Thread nD τ).loc main_arg2))) := by
  refine (W4_arr m ρ c 2).trans ((Region0.array (V3 m ρ) c).trans ?_)
  rw [Entry.features m ρ c, Entry.weight0 m ρ c]

/-- After the second region. -/
theorem after1 (c : Dev nD) : W6 m ρ c (Proc.devRef .tc main_v45) = (Cert.Gcn.hidden (n := 100000) (c := 128) (Cert.Gcn.spread (Entry.src m ρ c) (Entry.dst m ρ c) (Entry.nrm m ρ c) (Cert.Gcn.product (n := 100000) (c := 128) (m ((c : Thread nD τ).loc main_arg0)) (m ((c : Thread nD τ).loc main_arg2)))) (m ((c : Thread nD τ).loc main_arg3)) (m ((c : Thread nD τ).loc main_arg4))) := by
  refine (W6_arr m ρ c 3).trans ((Region1.array (V5 m ρ) c).trans ?_)
  rw [Entry.table1 m ρ c, Entry.row1 m ρ c, Entry.weight1 m ρ c, after0 m ρ c, Cert.Gcn.hiddenRow_asRow]

/-- After the third region. -/
theorem after2 (c : Dev nD) : W8 m ρ c (Proc.devRef .tc main_v60) = (Cert.Gcn.hidden (n := 100000) (c := 128) (Cert.Gcn.spread (Entry.src m ρ c) (Entry.dst m ρ c) (Entry.nrm m ρ c) (Cert.Gcn.hidden (n := 100000) (c := 128) (Cert.Gcn.spread (Entry.src m ρ c) (Entry.dst m ρ c) (Entry.nrm m ρ c) (Cert.Gcn.product (n := 100000) (c := 128) (m ((c : Thread nD τ).loc main_arg0)) (m ((c : Thread nD τ).loc main_arg2)))) (m ((c : Thread nD τ).loc main_arg3)) (m ((c : Thread nD τ).loc main_arg4)))) (m ((c : Thread nD τ).loc main_arg5)) (m ((c : Thread nD τ).loc main_arg6))) := by
  refine (W8_arr m ρ c 3).trans ((Region2.array (V7 m ρ) c).trans ?_)
  rw [Entry.table2 m ρ c, Entry.row2 m ρ c, Entry.weight2 m ρ c, after1 m ρ c, Cert.Gcn.hiddenRow_asRow]

/-- After the fourth region: 40 columns from here on. -/
theorem after3 (c : Dev nD) : W10 m ρ c (Proc.devRef .tc main_v75) = (Cert.Gcn.hidden (n := 100000) (c := 40) (Cert.Gcn.spread (Entry.src m ρ c) (Entry.dst m ρ c) (Entry.nrm m ρ c) (Cert.Gcn.hidden (n := 100000) (c := 128) (Cert.Gcn.spread (Entry.src m ρ c) (Entry.dst m ρ c) (Entry.nrm m ρ c) (Cert.Gcn.hidden (n := 100000) (c := 128) (Cert.Gcn.spread (Entry.src m ρ c) (Entry.dst m ρ c) (Entry.nrm m ρ c) (Cert.Gcn.product (n := 100000) (c := 128) (m ((c : Thread nD τ).loc main_arg0)) (m ((c : Thread nD τ).loc main_arg2)))) (m ((c : Thread nD τ).loc main_arg3)) (m ((c : Thread nD τ).loc main_arg4)))) (m ((c : Thread nD τ).loc main_arg5)) (m ((c : Thread nD τ).loc main_arg6)))) (m ((c : Thread nD τ).loc main_arg7)) (m ((c : Thread nD τ).loc main_arg8))) := by
  refine (W10_arr m ρ c 3).trans ((Region3.array (V9 m ρ) c).trans ?_)
  rw [Entry.table3 m ρ c, Entry.row3 m ρ c, Entry.weight3 m ρ c, after2 m ρ c, Cert.Gcn.hiddenRow_asRow]

/-- What the fifth region leaves of its output window — the program's result — is the whole network. -/
theorem result (c : Dev nD) : (dat4 (V11 m ρ) c).arrAt 2 cfg4.N
    = Cert.Gcn.net (Entry.src m ρ c) (Entry.dst m ρ c) (Entry.nrm m ρ c) (m ((c : Thread nD τ).loc main_arg0)) (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (m ((c : Thread nD τ).loc main_arg9)) := by
  refine (Region4.array (V11 m ρ) c).trans ?_
  rw [Entry.table4 m ρ c, Entry.row4 m ρ c, after3 m ρ c, Cert.Gcn.shiftRow_asRow]
  rfl

end Cert.KernelIdeal.Layers

end
-- ==== Proof.RefValue.lean ====
/-
  The reference's result as the whole network of its arguments.

  The reference is one straight line of host operations; read one operation at a time it is a chain of stages. The four
  matrix products, read at an entry, are sums over k of a left entry times a right entry; the bias broadcasts read the
  bias vector at the column; the clamp is a maximum with a splat of +0.0. So each dense stage is, entry by entry, the
  network's stage of the previous aggregation. Each aggregation stage is thirteen operations — wrap the sources, gather,
  scale by the arc weights, scatter-add into the targets — which are, operation for operation, the shared round of
  message passing; it is matched by unfolding the stages' one-line definitions, never by opening a gather or a scatter.
  The arc sources, targets and weights stay the three stages of the edge list that compute them.
-/
import proofs.«123305_j73220602462459_1_alg».proof.Proof.RefRead
import proofs.«123305_j73220602462459_1_alg».proof.Proof.Spec
import proofs.«123305_j73220602462459_1_alg».proof.Proof.LibPlainDot
import Idealize.ShloMosaic.Lib.ValueIdx

noncomputable section

set_option maxRecDepth 16384

namespace Cert.ReferenceIdeal.Stages

open Cert.ReferenceIdeal Cert.ReferenceIdeal.Gen Cert.ReferenceIdeal.ReadP Idealize.ShloMosaic Idealize.ShloMosaic.ValueIdx

/-- The first stage: the node features times the first weight. -/
theorem first (x0 : (⟨S100000x128, .f32⟩ : BufTy).Contents (Elt Ideal)) (x2 : (⟨S128x128, .f32⟩ : BufTy).Contents (Elt Ideal)) :
    val_main_v30 (F := Ideal) x0 x2 = Cert.Gcn.product (n := 100000) (c := 128) x0 x2 := by
  funext i
  obtain ⟨p, q, rfl⟩ : ∃ (p : Fin 100000) (q : Fin 128), i = ix2 p q := ⟨i 0, i 1, eq_ix2 i⟩
  rw [val_main_v30_apply, Cert.Gcn.product_apply]
  refine Finset.sum_congr rfl fun k _ => ?_
  have el : lidx_main_v30 (ix2 p q) k = ix2 p k := funext fun a => Fin.ext (by match a with | ⟨0, _⟩ => rfl | ⟨1, _⟩ => rfl)
  have er : ridx_main_v30 (ix2 p q) k = ix2 k q := funext fun a => Fin.ext (by match a with | ⟨0, _⟩ => rfl | ⟨1, _⟩ => rfl)
  rw [el, er]

/-- Aggregation 1: the stage's thirteen operations are the shared round of message passing, applied to the previous
    stage and to the arc arrays. -/
theorem round1 (x0 : (⟨S100000x128, .f32⟩ : BufTy).Contents (Elt Ideal)) (x1 : (⟨S2x500000, .i32⟩ : BufTy).Contents (Elt Ideal)) (x2 : (⟨S128x128, .f32⟩ : BufTy).Contents (Elt Ideal)) :
    val_main_v43 (F := Ideal) x0 x1 x2 = Cert.Gcn.spread (val_main_v3 (F := Ideal) x1) (val_main_v6 (F := Ideal) x1) (val_main_v29 (F := Ideal) x1) (val_main_v30 (F := Ideal) x0 x2) := by
  unfold val_main_v43 val_main_v42 val_main_v41 val_main_v40 val_main_v39 val_main_v38 val_main_v37 val_main_v36 val_main_v35 val_main_v34 val_main_v33 val_main_v32 val_main_v31 val_main_cst_8 val_main_c_6 val_main_c_7 Cert.Gcn.spread Cert.Gcn.sourceColumn
  rfl

/-- Dense stage 1: entry (p, q) is the sum over k of max(t(p, k) + b(k), 0) · W(k, q), t the aggregated table. -/
theorem dense1 (x0 : (⟨S100000x128, .f32⟩ : BufTy).Contents (Elt Ideal)) (x1 : (⟨S2x500000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v48 (F := Ideal) x0 x1 x2 x3 x4 = Cert.Gcn.hidden (n := 100000) (c := 128) (val_main_v43 (F := Ideal) x0 x1 x2) x3 x4 := by
  funext i
  obtain ⟨p, q, rfl⟩ : ∃ (p : Fin 100000) (q : Fin 128), i = ix2 p q := ⟨i 0, i 1, eq_ix2 i⟩
  rw [val_main_v48_apply, Cert.Gcn.hidden_apply]
  refine Finset.sum_congr rfl fun k _ => ?_
  have el : lidx_main_v48 (ix2 p q) k = ix2 p k := funext fun a => Fin.ext (by match a with | ⟨0, _⟩ => rfl | ⟨1, _⟩ => rfl)
  have er : ridx_main_v48 (ix2 p q) k = ix2 k q := funext fun a => Fin.ext (by match a with | ⟨0, _⟩ => rfl | ⟨1, _⟩ => rfl)
  have eb : idx_main_v44 (idx_main_v45 (ix2 p k)) = ix1 k := funext fun a => Fin.ext (by match a with | ⟨0, _⟩ => rfl)
  rw [el, er, val_main_v47_apply, val_main_v46_apply, val_main_v45_apply, val_main_v44_apply, eb,
    val_main_call1_v0_apply, val_main_call1_cst_apply]
  rfl

/-- Aggregation 2: the stage's thirteen operations are the shared round of message passing, applied to the previous
    stage and to the arc arrays. -/
theorem round2 (x0 : (⟨S100000x128, .f32⟩ : BufTy).Contents (Elt Ideal)) (x1 : (⟨S2x500000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v61 (F := Ideal) x0 x1 x2 x3 x4 = Cert.Gcn.spread (val_main_v3 (F := Ideal) x1) (val_main_v6 (F := Ideal) x1) (val_main_v29 (F := Ideal) x1) (val_main_v48 (F := Ideal) x0 x1 x2 x3 x4) := by
  unfold val_main_v61 val_main_v60 val_main_v59 val_main_v58 val_main_v57 val_main_v56 val_main_v55 val_main_v54 val_main_v53 val_main_v52 val_main_v51 val_main_v50 val_main_v49 val_main_cst_11 val_main_c_9 val_main_c_10 Cert.Gcn.spread Cert.Gcn.sourceColumn
  rfl

/-- Dense stage 2: entry (p, q) is the sum over k of max(t(p, k) + b(k), 0) · W(k, q), t the aggregated table. -/
theorem dense2 (x0 : (⟨S100000x128, .f32⟩ : BufTy).Contents (Elt Ideal)) (x1 : (⟨S2x500000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) :
    val_main_v66 (F := Ideal) x0 x1 x2 x3 x4 x5 x6 = Cert.Gcn.hidden (n := 100000) (c := 128) (val_main_v61 (F := Ideal) x0 x1 x2 x3 x4) x5 x6 := by
  funext i
  obtain ⟨p, q, rfl⟩ : ∃ (p : Fin 100000) (q : Fin 128), i = ix2 p q := ⟨i 0, i 1, eq_ix2 i⟩
  rw [val_main_v66_apply, Cert.Gcn.hidden_apply]
  refine Finset.sum_congr rfl fun k _ => ?_
  have el : lidx_main_v66 (ix2 p q) k = ix2 p k := funext fun a => Fin.ext (by match a with | ⟨0, _⟩ => rfl | ⟨1, _⟩ => rfl)
  have er : ridx_main_v66 (ix2 p q) k = ix2 k q := funext fun a => Fin.ext (by match a with | ⟨0, _⟩ => rfl | ⟨1, _⟩ => rfl)
  have eb : idx_main_v62 (idx_main_v63 (ix2 p k)) = ix1 k := funext fun a => Fin.ext (by match a with | ⟨0, _⟩ => rfl)
  rw [el, er, val_main_v65_apply, val_main_v64_apply, val_main_v63_apply, val_main_v62_apply, eb,
    val_main_call2_v0_apply, val_main_call2_cst_apply]
  rfl

/-- Aggregation 3: the stage's thirteen operations are the shared round of message passing, applied to the previous
    stage and to the arc arrays. -/
theorem round3 (x0 : (⟨S100000x128, .f32⟩ : BufTy).Contents (Elt Ideal)) (x1 : (⟨S2x500000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) :
    val_main_v79 (F := Ideal) x0 x1 x2 x3 x4 x5 x6 = Cert.Gcn.spread (val_main_v3 (F := Ideal) x1) (val_main_v6 (F := Ideal) x1) (val_main_v29 (F := Ideal) x1) (val_main_v66 (F := Ideal) x0 x1 x2 x3 x4 x5 x6) := by
  unfold val_main_v79 val_main_v78 val_main_v77 val_main_v76 val_main_v75 val_main_v74 val_main_v73 val_main_v72 val_main_v71 val_main_v70 val_main_v69 val_main_v68 val_main_v67 val_main_cst_14 val_main_c_12 val_main_c_13 Cert.Gcn.spread Cert.Gcn.sourceColumn
  rfl

/-- Dense stage 3: entry (p, q) is the sum over k of max(t(p, k) + b(k), 0) · W(k, q), t the aggregated table. -/
theorem dense3 (x0 : (⟨S100000x128, .f32⟩ : BufTy).Contents (Elt Ideal)) (x1 : (⟨S2x500000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x40, .f32⟩ : BufTy).Contents (Elt Ideal)) :
    val_main_v84 (F := Ideal) x0 x1 x2 x3 x4 x5 x6 x7 x8 = Cert.Gcn.hidden (n := 100000) (c := 40) (val_main_v79 (F := Ideal) x0 x1 x2 x3 x4 x5 x6) x7 x8 := by
  funext i
  obtain ⟨p, q, rfl⟩ : ∃ (p : Fin 100000) (q : Fin 40), i = ix2 p q := ⟨i 0, i 1, eq_ix2 i⟩
  rw [val_main_v84_apply, Cert.Gcn.hidden_apply]
  refine Finset.sum_congr rfl fun k _ => ?_
  have el : lidx_main_v84 (ix2 p q) k = ix2 p k := funext fun a => Fin.ext (by match a with | ⟨0, _⟩ => rfl | ⟨1, _⟩ => rfl)
  have er : ridx_main_v84 (ix2 p q) k = ix2 k q := funext fun a => Fin.ext (by match a with | ⟨0, _⟩ => rfl | ⟨1, _⟩ => rfl)
  have eb : idx_main_v80 (idx_main_v81 (ix2 p k)) = ix1 k := funext fun a => Fin.ext (by match a with | ⟨0, _⟩ => rfl)
  rw [el, er, val_main_v83_apply, val_main_v82_apply, val_main_v81_apply, val_main_v80_apply, eb,
    val_main_call3_v0_apply, val_main_call3_cst_apply]
  rfl

/-- Aggregation 4: the stage's thirteen operations are the shared round of message passing, applied to the previous
    stage and to the arc arrays. -/
theorem round4 (x0 : (⟨S100000x128, .f32⟩ : BufTy).Contents (Elt Ideal)) (x1 : (⟨S2x500000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x40, .f32⟩ : BufTy).Contents (Elt Ideal)) :
    val_main_v97 (F := Ideal) x0 x1 x2 x3 x4 x5 x6 x7 x8 = Cert.Gcn.spread' (val_main_v3 (F := Ideal) x1) (val_main_v6 (F := Ideal) x1) (val_main_v29 (F := Ideal) x1) (val_main_v84 (F := Ideal) x0 x1 x2 x3 x4 x5 x6 x7 x8) := by
  unfold val_main_v97 val_main_v96 val_main_v95 val_main_v94 val_main_v93 val_main_v92 val_main_v91 val_main_v90 val_main_v89 val_main_v88 val_main_v87 val_main_v86 val_main_v85 val_main_cst_17 val_main_c_15 val_main_c_16 Cert.Gcn.spread' Cert.Gcn.sourceColumn
  rfl

/-- The last stage: the last aggregation plus the last bias, column by column. -/
theorem last (x0 : (⟨S100000x128, .f32⟩ : BufTy).Contents (Elt Ideal)) (x1 : (⟨S2x500000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x40, .f32⟩ : BufTy).Contents (Elt Ideal)) (x9 : (⟨S40, .f32⟩ : BufTy).Contents (Elt Ideal)) :
    val_main_v100 (F := Ideal) x0 x1 x2 x3 x4 x5 x6 x7 x8 x9 = Cert.Gcn.shift (n := 100000) (c := 40) (val_main_v97 (F := Ideal) x0 x1 x2 x3 x4 x5 x6 x7 x8) x9 := by
  funext i
  obtain ⟨p, q, rfl⟩ : ∃ (p : Fin 100000) (q : Fin 40), i = ix2 p q := ⟨i 0, i 1, eq_ix2 i⟩
  have eb : idx_main_v98 (idx_main_v99 (ix2 p q)) = ix1 q := funext fun a => Fin.ext (by match a with | ⟨0, _⟩ => rfl)
  rw [val_main_v100_apply, val_main_v99_apply, val_main_v98_apply, eb, Cert.Gcn.shift_apply]
  rfl

/-- The reference's result is the whole network of its arguments, with the arcs as its own first stages compute them. -/
theorem whole (x0 : (⟨S100000x128, .f32⟩ : BufTy).Contents (Elt Ideal)) (x1 : (⟨S2x500000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x40, .f32⟩ : BufTy).Contents (Elt Ideal)) (x9 : (⟨S40, .f32⟩ : BufTy).Contents (Elt Ideal)) :
    val_main_v100 (F := Ideal) x0 x1 x2 x3 x4 x5 x6 x7 x8 x9 = Cert.Gcn.net (val_main_v3 (F := Ideal) x1) (val_main_v6 (F := Ideal) x1) (val_main_v29 (F := Ideal) x1) x0 x2 x3 x4 x5 x6 x7 x8 x9 := by
  rw [last, round4, dense3, round3, dense2, round2, dense1, round1, first]
  rfl

end Cert.ReferenceIdeal.Stages

end
-- ==== Proof.LibTypedRef.lean ====
/-
  Typed references: contents moved to the buffer's type and back.

  A called function's operations are printed over TYPED references (`StableHlo.TRef sig T`): a buffer together with the
  fact that its type is `T`.  Such an operation reads its operands through `TRef.ofBuf` (the buffer's contents as
  contents of type `T`) and writes its result through `TRef.toBuf` (the other way), both transports along that fact.  So
  a fold over such operations (`StableHlo.after`), once rewritten to the operations' functions, carries a pair
  `ofBuf (toBuf v)` around every intermediate value.  The two lemmas cancel the pairs, for any reference signature and any
  value family; with them as `simp only` lemmas the fold's term becomes the plain composition of the operations'
  functions, which a definitional comparison with a staged definition of the same value then closes quickly.  (Without
  them the comparison has to see through every transport, and on a term holding a reduction or a gather it unfolds
  those first.)
-/
import Idealize.ShloMosaic.Lib.StableHlo

namespace Idealize.ShloMosaic.StableHlo.TRef

variable {sig : RefSig} {Val : EltTy → Type} {T : BufTy}

/-- Contents moved to a typed reference's buffer type and back are unchanged. -/
theorem ofBuf_toBuf (x : TRef sig T) (v : T.Contents Val) : x.ofBuf (x.toBuf v) = v := by
  obtain ⟨r, rfl, _, _⟩ := x
  rfl

/-- A buffer's contents read at the reference's type and moved back are unchanged. -/
theorem toBuf_ofBuf (x : TRef sig T) (u : x.ref.ty.Contents Val) : x.toBuf (x.ofBuf u) = u := by
  obtain ⟨r, rfl, _, _⟩ := x
  rfl

end Idealize.ShloMosaic.StableHlo.TRef
-- ==== Proof.Arcs.lean ====
/-
  The two programs read the same arcs off the edge list.

  Both programs begin with the same host operations on the edge list: split it into its two rows, append one loop per
  node to each (sources and targets), count each node's incoming arcs by scattering ones, take the inverse root of the
  positive counts (zero elsewhere), and weigh each arc by the product of its endpoints' values. The kernel's program
  runs them as three stretches before its first region; the reference as its first forty stages. Read off the kernel's
  stretches one at a time — the in-degree mask and inverse root after the first, the table that is zero where the
  in-degree is not positive after the second, the arc weights after the third — each array is the composition of exactly
  those operations on the launched edge list, the same composition the reference's stages spell, one definition per
  operation. Nothing about a gather or a scatter is used: the two spellings are compared operation for operation, and
  each later stretch takes the earlier stretches' arrays as given.
-/
import proofs.«123305_j73220602462459_1_alg».proof.Proof.Entry
import proofs.«123305_j73220602462459_1_alg».proof.Proof.RefRead
import proofs.«123305_j73220602462459_1_alg».proof.Proof.LibTypedRef
import Idealize.ShloMosaic.Lib.StableHlo.Run

noncomputable section

set_option maxRecDepth 16384

namespace Cert.KernelIdeal.Arcs

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-! ### After the first stretch -/

set_option maxHeartbeats 16000000 in
/-- The arc sources: the edge list's first row, then one loop per node. -/
theorem sources1 (c : Dev nD) :
    W1 m ρ c (Proc.devRef .tc main_v3) = Cert.ReferenceIdeal.ReadP.val_main_v3 (F := Ideal) (m ((c : Thread nD τ).loc main_arg1)) := by
  show StableHlo.after hostOps0 (W0 m ρ c) (Proc.devRef .tc main_v3) = _
  after_results_simp
  unfold Cert.ReferenceIdeal.ReadP.val_main_v3 Cert.ReferenceIdeal.ReadP.val_main_v2 Cert.ReferenceIdeal.ReadP.val_main_v1 Cert.ReferenceIdeal.ReadP.val_main_v0
  rfl

set_option maxHeartbeats 16000000 in
/-- The arc targets: the edge list's second row, then one loop per node. -/
theorem targets1 (c : Dev nD) :
    W1 m ρ c (Proc.devRef .tc main_v6) = Cert.ReferenceIdeal.ReadP.val_main_v6 (F := Ideal) (m ((c : Thread nD τ).loc main_arg1)) := by
  show StableHlo.after hostOps0 (W0 m ρ c) (Proc.devRef .tc main_v6) = _
  after_results_simp
  unfold Cert.ReferenceIdeal.ReadP.val_main_v6 Cert.ReferenceIdeal.ReadP.val_main_v5 Cert.ReferenceIdeal.ReadP.val_main_v4 Cert.ReferenceIdeal.ReadP.val_main_v0
  rfl

set_option maxHeartbeats 16000000 in
/-- Where the in-degree (ones scattered into the targets) is positive. -/
theorem positive1 (c : Dev nD) :
    W1 m ρ c (Proc.devRef .tc main_v12) = Cert.ReferenceIdeal.ReadP.val_main_v12 (F := Ideal) (m ((c : Thread nD τ).loc main_arg1)) := by
  show StableHlo.after hostOps0 (W0 m ρ c) (Proc.devRef .tc main_v12) = _
  after_results_simp
  unfold Cert.ReferenceIdeal.ReadP.val_main_v12 Cert.ReferenceIdeal.ReadP.val_main_v11 Cert.ReferenceIdeal.ReadP.val_main_cst_1 Cert.ReferenceIdeal.ReadP.val_main_v10 Cert.ReferenceIdeal.ReadP.val_main_v9 Cert.ReferenceIdeal.ReadP.val_main_v8 Cert.ReferenceIdeal.ReadP.val_main_v7 Cert.ReferenceIdeal.ReadP.val_main_cst_0 Cert.ReferenceIdeal.ReadP.val_main_cst Cert.ReferenceIdeal.ReadP.val_main_v6 Cert.ReferenceIdeal.ReadP.val_main_v5 Cert.ReferenceIdeal.ReadP.val_main_v4 Cert.ReferenceIdeal.ReadP.val_main_v0
  rfl

set_option maxHeartbeats 16000000 in
/-- The inverse root of the in-degree. -/
theorem root1 (c : Dev nD) :
    W1 m ρ c (Proc.devRef .tc main_v13) = Cert.ReferenceIdeal.ReadP.val_main_v13 (F := Ideal) (m ((c : Thread nD τ).loc main_arg1)) := by
  show StableHlo.after hostOps0 (W0 m ρ c) (Proc.devRef .tc main_v13) = _
  after_results_simp
  unfold Cert.ReferenceIdeal.ReadP.val_main_v13 Cert.ReferenceIdeal.ReadP.val_main_v10 Cert.ReferenceIdeal.ReadP.val_main_v9 Cert.ReferenceIdeal.ReadP.val_main_v8 Cert.ReferenceIdeal.ReadP.val_main_v7 Cert.ReferenceIdeal.ReadP.val_main_cst_0 Cert.ReferenceIdeal.ReadP.val_main_cst Cert.ReferenceIdeal.ReadP.val_main_v6 Cert.ReferenceIdeal.ReadP.val_main_v5 Cert.ReferenceIdeal.ReadP.val_main_v4 Cert.ReferenceIdeal.ReadP.val_main_v0
  rfl

set_option maxHeartbeats 16000000 in
/-- The zero the table holds where the in-degree is not positive. -/
theorem zero1 (c : Dev nD) :
    W1 m ρ c (Proc.devRef .tc main_cst_2) = Cert.ReferenceIdeal.ReadP.val_main_cst_2 (F := Ideal) := by
  show StableHlo.after hostOps0 (W0 m ρ c) (Proc.devRef .tc main_cst_2) = _
  after_results_simp
  unfold Cert.ReferenceIdeal.ReadP.val_main_cst_2
  rfl

/-! ### After the second stretch: the outlined selection -/

theorem sources2 (c : Dev nD) : W2 m ρ c (Proc.devRef .tc main_v3) = Cert.ReferenceIdeal.ReadP.val_main_v3 (F := Ideal) (m ((c : Thread nD τ).loc main_arg1)) :=
  (show W2 m ρ c (Proc.devRef .tc main_v3) = W1 m ρ c (Proc.devRef .tc main_v3) from by untouched_by hostOps0_1).trans (sources1 m ρ c)
theorem targets2 (c : Dev nD) : W2 m ρ c (Proc.devRef .tc main_v6) = Cert.ReferenceIdeal.ReadP.val_main_v6 (F := Ideal) (m ((c : Thread nD τ).loc main_arg1)) :=
  (show W2 m ρ c (Proc.devRef .tc main_v6) = W1 m ρ c (Proc.devRef .tc main_v6) from by untouched_by hostOps0_1).trans (targets1 m ρ c)

set_option maxHeartbeats 16000000 in
/-- The table of inverse root in-degrees, zero where the in-degree is not positive: the selection's three operations on
    the first stretch's mask, roots and zero. -/
theorem table2 (c : Dev nD) : W2 m ρ c (Proc.devRef .tc main_v14) = Cert.ReferenceIdeal.ReadP.val_main_v14 (F := Ideal) (m ((c : Thread nD τ).loc main_arg1)) := by
  have h12 := positive1 m ρ c
  have h13 := root1 m ρ c
  have hz := zero1 m ρ c
  show StableHlo.after hostOps0_1 (W1 m ρ c) (Proc.devRef .tc main_v14) = _
  generalize W1 m ρ c = U at h12 h13 hz ⊢
  after_results_simp
  simp only [h12, h13, hz, TRef.ofBuf_toBuf, TRef.toBuf_ofBuf]
  unfold Cert.ReferenceIdeal.ReadP.val_main_v14 Cert.ReferenceIdeal.ReadP.val_main_call0_v1 Cert.ReferenceIdeal.ReadP.val_main_call0_v0
  generalize Cert.ReferenceIdeal.ReadP.val_main_v12 (F := Ideal) (m ((c : Thread nD τ).loc main_arg1)) = mask
  generalize Cert.ReferenceIdeal.ReadP.val_main_v13 (F := Ideal) (m ((c : Thread nD τ).loc main_arg1)) = roots
  generalize Cert.ReferenceIdeal.ReadP.val_main_cst_2 (F := Ideal) = zero
  rfl

/-! ### After the third stretch: what the first region finds -/

/-- The arc sources as the first region finds them. -/
theorem src_eq (c : Dev nD) : Entry.src m ρ c = Cert.ReferenceIdeal.ReadP.val_main_v3 (F := Ideal) (m ((c : Thread nD τ).loc main_arg1)) :=
  (show W3 m ρ c (Proc.devRef .tc main_v3) = W2 m ρ c (Proc.devRef .tc main_v3) from by untouched_by hostOps0_2).trans (sources2 m ρ c)

/-- The arc targets as the first region finds them. -/
theorem dst_eq (c : Dev nD) : Entry.dst m ρ c = Cert.ReferenceIdeal.ReadP.val_main_v6 (F := Ideal) (m ((c : Thread nD τ).loc main_arg1)) :=
  (show W3 m ρ c (Proc.devRef .tc main_v6) = W2 m ρ c (Proc.devRef .tc main_v6) from by untouched_by hostOps0_2).trans (targets2 m ρ c)

set_option maxHeartbeats 16000000 in
/-- The arc weights as the first region finds them: the table gathered at the (wrapped) sources times the table
    gathered at the (wrapped) targets — the third stretch's operations on the second stretch's table and the two index
    arrays. -/
theorem nrm_eq (c : Dev nD) : Entry.nrm m ρ c = Cert.ReferenceIdeal.ReadP.val_main_v29 (F := Ideal) (m ((c : Thread nD τ).loc main_arg1)) := by
  have h14 := table2 m ρ c
  have h3 := sources2 m ρ c
  have h6 := targets2 m ρ c
  show StableHlo.after hostOps0_2 (W2 m ρ c) (Proc.devRef .tc main_v29) = _
  generalize W2 m ρ c = U at h14 h3 h6 ⊢
  after_results_simp
  simp only [h14, h3, h6]
  unfold Cert.ReferenceIdeal.ReadP.val_main_v29 Cert.ReferenceIdeal.ReadP.val_main_v28 Cert.ReferenceIdeal.ReadP.val_main_v27 Cert.ReferenceIdeal.ReadP.val_main_v26 Cert.ReferenceIdeal.ReadP.val_main_v25 Cert.ReferenceIdeal.ReadP.val_main_v24 Cert.ReferenceIdeal.ReadP.val_main_v23 Cert.ReferenceIdeal.ReadP.val_main_v22 Cert.ReferenceIdeal.ReadP.val_main_c_5 Cert.ReferenceIdeal.ReadP.val_main_c_4 Cert.ReferenceIdeal.ReadP.val_main_v21 Cert.ReferenceIdeal.ReadP.val_main_v20 Cert.ReferenceIdeal.ReadP.val_main_v19 Cert.ReferenceIdeal.ReadP.val_main_v18 Cert.ReferenceIdeal.ReadP.val_main_v17 Cert.ReferenceIdeal.ReadP.val_main_v16 Cert.ReferenceIdeal.ReadP.val_main_v15 Cert.ReferenceIdeal.ReadP.val_main_c_3 Cert.ReferenceIdeal.ReadP.val_main_c
  rfl

end Cert.KernelIdeal.Arcs

end
-- ==== Proof.lean ====
/-
  A four-layer graph convolution network, kernel against reference, over the extended reals.

  Both programs compute, for node features x, an edge list and four weight / bias pairs,

      out = A(relu(A(relu(A(relu(A(x·W0) + b0)·W1) + b1)·W2) + b2)·W3) + b3,

  where A is one round of message passing: row v of A(h) is the sum over the arcs into v (the listed edges and one loop
  per node) of the arc's weight — the product of its endpoints' inverse root in-degrees — times row source of h.

  The reference applies the operations in that order, whole arrays at a time. The kernel regroups them: each round of
  message passing stays on the host, and what lies between two rounds — add the bias, clamp at zero, multiply by the
  next weight — is one pipelined region working on ten blocks of 10000 rows (the first region only multiplies, the last
  only adds the bias). Nothing is reassociated: a block of rows of a matrix product is the product's rows, a bias row
  broadcast inside a block is the bias broadcast over the whole table, and the narrowing to bf16 before each product is
  the identity on extended reals. So the two results are the same function of the arguments, entry by entry, and the
  precondition (finite inputs) is not used.

  The proof: Spec states the network as stages of whole arrays, with A named once. On the kernel's side, KernelRun reads
  every buffer's final contents off the run; Region0 … Region4 show what each region leaves of its output array (the
  blocks written back tile one whole-array function); Entry and the Carry modules read what each region finds in its
  windows; KernelValue composes them. On the reference's side RefValue peels its stages. Arcs compares the two programs'
  common prologue on the edge list. The idealization rewrote nothing, so `preserves` is trivial.
-/
import proofs.«123305_j73220602462459_1_alg».proof.Defs
import proofs.«123305_j73220602462459_1_alg».proof.Proof.Gen.Kernel
import proofs.«123305_j73220602462459_1_alg».proof.Proof.Gen.Kernel.Frame
import proofs.«123305_j73220602462459_1_alg».proof.Proof.Gen.KernelIdeal
import proofs.«123305_j73220602462459_1_alg».proof.Proof.Gen.KernelIdeal.Frame
import proofs.«123305_j73220602462459_1_alg».proof.Proof.Gen.ReferenceIdeal
import proofs.«123305_j73220602462459_1_alg».proof.Proof.Gen.Pre_finite_inputs
import proofs.«123305_j73220602462459_1_alg».proof.Proof.KernelRun
import proofs.«123305_j73220602462459_1_alg».proof.Proof.KernelValue
import proofs.«123305_j73220602462459_1_alg».proof.Proof.RefRun
import proofs.«123305_j73220602462459_1_alg».proof.Proof.RefRead
import proofs.«123305_j73220602462459_1_alg».proof.Proof.RefValue
import proofs.«123305_j73220602462459_1_alg».proof.Proof.Arcs
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and keeps its arguments: the generated frame of its five regions. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments both programs end with the whole network of those arguments in their
    result arrays: the kernel's by its five regions, the reference's by its stages, the arcs being the same three
    functions of the edge list. -/
theorem algebraic : Cert.algebraic_KernelIdeal_ReferenceIdeal := by
  intro m ρ m' ρ' _ hagree
  refine ⟨fun c => Cert.Gcn.net (Cert.KernelIdeal.Entry.src m ρ c) (Cert.KernelIdeal.Entry.dst m ρ c) (Cert.KernelIdeal.Entry.nrm m ρ c)
    (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
    (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun r h c => ⟨(h c).1.trans (Cert.KernelIdeal.Layers.result m ρ c), (h c).2⟩)
      (Cert.KernelIdeal.Whole.run_result (F := Ideal) m ρ)
  · refine (θ_run Cert.ReferenceIdeal.defs _ _).mono (fun r h c => ⟨(h c).1.trans ?_, (h c).2⟩) (Cert.ReferenceIdeal.ValueP.run (F := Ideal) m' ρ')
    obtain ⟨h0, h1, h2, h3, h4, h5, h6, h7, h8, h9⟩ := hagree c
    rw [Cert.ReferenceIdeal.ReadP.val_main_v100_eq, Cert.ReferenceIdeal.Stages.whole, h0, h1, h2, h3, h4, h5, h6, h7, h8, h9,
      ← Cert.KernelIdeal.Arcs.src_eq m ρ c, ← Cert.KernelIdeal.Arcs.dst_eq m ρ c, ← Cert.KernelIdeal.Arcs.nrm_eq m ρ c]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
